-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_keep" .f32 0x3F8E38E4#32 ((8388608 / 7549747 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x400000 : Shape := ⟨2, ![2, 400000]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S100000x512 1) : IVec S_ 1 :=
  let main_c_5 : IVec S_ 1 := constantI S_ 1 1#1
  let main_v17 : IVec S_ 1 := (fun x v => Host.reduce IntOp.andi x v reducesTo_S100000x512_S_d0_1 h_S_) main_v16 main_c_5
  let main_v18 : IVec S_ 1 := andi main_v13 main_v17
  main_v18

def fn {F : FTy → Type} [FloatOps F] (main_arg0 : FVec F S100000x512 .f32) (main_arg1 : IVec S2x400000 32) (main_arg2 : FVec F S512x512 .f32) (main_arg3 : FVec F S512 .f32) (main_arg4 : FVec F S100000x512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S100000x512 .f32 := Host.absf main_arg4
  let main_cst_4 : FVec F S_ .f32 := constant S_ .f32 0x7F800000#32
  let main_v15 : FVec F S100000x512 .f32 := broadcastInDim S100000x512 ![] bcast_S_S100000x512 main_cst_4
  let main_v16 : IVec S100000x512 1 := cmpf .olt main_v14 main_v15
  fn_part1 (F := F) main_v13 main_v16
-- ==== Kernel.lean ====
abbrev S100000x512 : Shape := ⟨2, ![100000, 512]⟩
abbrev S2x400000 : Shape := ⟨2, ![2, 400000]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S100000 : Shape := ⟨1, ![100000]⟩
abbrev S400000x1 : Shape := ⟨2, ![400000, 1]⟩
abbrev S100000x1 : Shape := ⟨2, ![100000, 1]⟩
abbrev S2000x512 : Shape := ⟨2, ![2000, 512]⟩
abbrev S2000x1 : Shape := ⟨2, ![2000, 1]⟩
abbrev S400000x512 : Shape := ⟨2, ![400000, 512]⟩
abbrev S1x512 : Shape := ⟨2, ![1, 512]⟩

abbrev nBuf : Space → Nat
  | .hbm => 51
  | .vmem => 9
  | .smem => 0
  | _ => 0

abbrev bufTy : (tb : Table) → Fin (tcTables nBuf tb) → BufTy
  | .hbm, ⟨0, _⟩ => ⟨S100000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S100000x512, .f32⟩
  | .hbm, ⟨5, _⟩ => ⟨S1x400000, .i32⟩
  | .hbm, ⟨6, _⟩ => ⟨S400000, .i32⟩
  | .hbm, ⟨7, _⟩ => ⟨S1x400000, .i32⟩
  | .hbm, ⟨8, _⟩ => ⟨S400000, .i32⟩
  | .hbm, ⟨9, _⟩ => ⟨S_, .f32⟩
  | .hbm, ⟨10, _⟩ => ⟨S400000, .f32⟩
  | .hbm, ⟨11, _⟩ => ⟨S_, .f32⟩
  | .hbm, ⟨12, _⟩ => ⟨S100000, .f32⟩
  | .hbm, ⟨13, _⟩ => ⟨S400000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S512x512, .bf16⟩
  | .hbm, ⟨31, _⟩ => ⟨S100000x512, .f32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x512, .f32⟩
  | .hbm, ⟨41, _⟩ => ⟨S_, .f32⟩
  | .hbm, ⟨42, _⟩ => ⟨S100000x512, .f32⟩
  | .hbm, ⟨43, _⟩ => ⟨S400000x1, .i32⟩
  | .hbm, ⟨44, _⟩ => ⟨S100000x512, .f32⟩
  | .hbm, ⟨45, _⟩ => ⟨S100000x512, .f32⟩
  | .hbm, ⟨46, _⟩ => ⟨S100000x512, .f32⟩
  | .hbm, ⟨47, _⟩ => ⟨S100000x512, .f32⟩
  | .hbm, ⟨48, _⟩ => ⟨S1x512, .f32⟩
  | .hbm, ⟨49, _⟩ => ⟨S100000x512, .f32⟩
  | .hbm, ⟨50, _⟩ => ⟨S100000x512, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x512, .bf16⟩
  | .local _ .vmem, ⟨5, _⟩ => ⟨S2000x1, .f32⟩
  | .local _ .vmem, ⟨6, _⟩ => ⟨S2000x1, .f32⟩
  | .local _ .vmem, ⟨7, _⟩ => ⟨S2000x512, .f32⟩
  | .local _ .vmem, ⟨8, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  shapeCasts_S100000_S100000x1 : S100000.ShapeCasts S100000x1
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  bcast_S_S100000x512 : S_.BroadcastsInDim S100000x512 (![] : Fin 0 → Fin S100000x512.rank)
  bcast_S100000x1_S100000x512_0_1 : S100000x1.BroadcastsInDim S100000x512 (![0, 1] : Fin 2 → Fin S100000x512.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  scatter_S100000_S400000x1_S400000_n_0_0_1_wf : ScatterDims.WF S100000 S400000x1 S400000 [] [0] [0] 1
  dot_S2000x512_S512x512_S2000x512_1_0_0_1_n_n_wf : DotDims.WF S2000x512 S512x512 S2000x512 [1] [0] [0] [1] [] []
  gather_S100000x512_S400000x1_S400000x512_1_0_n_n_0_1_1512_wf : GatherDims.WF S100000x512 S400000x1 S400000x512 [1] [0] [] [0] [] 1 ![1, 512]
  scatter_S100000x512_S400000x1_S400000x512_1_0_0_1_wf : ScatterDims.WF S100000x512 S400000x1 S400000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S100000x512.size a
  hwx0_4 : ∀ i : grid0.Coords, EltTy.bits .f32 = 32 ∨ (Rect.block (s := S100000x512) S2000x512.size (cc0_transform_4 i) (hinb0_4 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S100000x512_S400000x1_S400000x512_1_0_0_1 : ScatterDims S100000x512 S400000x1 S400000x512 where
  updateWindowDims := [1]
  insertedWindowDims := [0]
  scatterDimsToOperandDims := [0]
  indexVectorDim := 1
  wf := scatter_S100000x512_S400000x1_S400000x512_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x400000 : Shape := ⟨2, ![2, 400000]⟩
abbrev S512x512 : Shape := ⟨2, ![512, 512]⟩
abbrev S512 : Shape := ⟨1, ![512]⟩
abbrev S_ : Shape := ⟨0, ![]⟩
abbrev S100000 : Shape := ⟨1, ![100000]⟩
abbrev S1x400000 : Shape := ⟨2, ![1, 400000]⟩
abbrev S400000 : Shape := ⟨1, ![400000]⟩
abbrev S500000 : Shape := ⟨1, ![500000]⟩
abbrev S500000x1 : Shape := ⟨2, ![500000, 1]⟩
abbrev S500000x512 : Shape := ⟨2, ![500000, 512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S100000x512, .f32⟩
  | .hbm, ⟨5, _⟩ => ⟨S_, .f32⟩
  | .hbm, ⟨6, _⟩ => ⟨S100000x512, .f32⟩
  | .hbm, ⟨7, _⟩ => ⟨S100000x512, .i1⟩
  | .hbm, ⟨8, _⟩ => ⟨S100000x512, .f32⟩
  | .hbm, ⟨9, _⟩ => ⟨S_, .f32⟩
  | .hbm, ⟨10, _⟩ => ⟨S100000x512, .f32⟩
  | .hbm, ⟨11, _⟩ => ⟨S100000x512, .f32⟩
  | .hbm, ⟨12, _⟩ => ⟨S100000x512, .f32⟩
  | .hbm, ⟨13, _⟩ => ⟨S100000x512, .f32⟩
  | .hbm, ⟨14, _⟩ => ⟨S100000, .i32⟩
  | .hbm, ⟨15, _⟩ => ⟨S1x400000, .i32⟩
  | .hbm, ⟨16, _⟩ => ⟨S400000, .i32⟩
  | .hbm, ⟨17, _⟩ => ⟨S500000, .i32⟩
  | .hbm, ⟨18, _⟩ => ⟨S1x400000, .i32⟩
  | .hbm, ⟨19, _⟩ => ⟨S400000, .i32⟩
  | .hbm, ⟨20, _⟩ => ⟨S500000, .i32⟩
  | .hbm, ⟨21, _⟩ => ⟨S_, .f32⟩
  | .hbm, ⟨22, _⟩ => ⟨S500000, .f32⟩
  | .hbm, ⟨23, _⟩ => ⟨S_, .f32⟩
  | .hbm, ⟨24, _⟩ => ⟨S100000, .f32⟩
  | .hbm, ⟨25, _⟩ => ⟨S500000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000, .f32⟩
  | .hbm, ⟨56, _⟩ => ⟨S500000, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x512, .f32⟩
  | .hbm, ⟨66, _⟩ => ⟨S500000x1, .f32⟩
  | .hbm, ⟨67, _⟩ => ⟨S500000x512, .f32⟩
  | .hbm, ⟨68, _⟩ => ⟨S500000x512, .f32⟩
  | .hbm, ⟨69, _⟩ => ⟨S_, .f32⟩
  | .hbm, ⟨70, _⟩ => ⟨S100000x512, .f32⟩
  | .hbm, ⟨71, _⟩ => ⟨S500000x1, .i32⟩
  | .hbm, ⟨72, _⟩ => ⟨S100000x512, .f32⟩
  | .hbm, ⟨73, _⟩ => ⟨S1x512, .f32⟩
  | .hbm, ⟨74, _⟩ => ⟨S100000x512, .f32⟩
  | .hbm, ⟨75, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  bcast_S_S100000x512 : S_.BroadcastsInDim S100000x512 (![] : Fin 0 → Fin S100000x512.rank)
  slices_S2x400000_S1x400000_0_0 : S2x400000.Slices ![0, 0] S1x400000
  shapeCasts_S1x400000_S400000 : S1x400000.ShapeCasts S400000
  concatenates_S400000_S100000_S500000_d0 : Shape.Concatenates [S400000, S100000] S500000 0
  slices_S2x400000_S1x400000_1_0 : S2x400000.Slices ![1, 0] S1x400000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S500000x1_S500000x512_0_1 : S500000x1.BroadcastsInDim S500000x512 (![0, 1] : Fin 2 → Fin S500000x512.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  dot_S100000x512_S512x512_S100000x512_1_0_0_1_n_n_wf : DotDims.WF S100000x512 S512x512 S100000x512 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x512_S500000x1_S500000x512_1_0_n_n_0_1_1512_wf : GatherDims.WF S100000x512 S500000x1 S500000x512 [1] [0] [] [0] [] 1 ![1, 512]
  scatter_S100000x512_S500000x1_S500000x512_1_0_0_1_wf : ScatterDims.WF S100000x512 S500000x1 S500000x512 [1] [0] [0] 1

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x512_S500000x1_S500000x512_1_0_n_n_0_1_1512 : GatherDims S100000x512 S500000x1 S500000x512 where
  offsetDims := [1]
  collapsedSliceDims := [0]
  operandBatchingDims := []
  startIndicesBatchingDims := []
  startIndexMap := [0]
  indexVectorDim := 1
  sliceSizes := ![1, 512]
  wf := gather_S100000x512_S500000x1_S500000x512_1_0_n_n_0_1_1512_wf
def scatter_S100000x512_S500000x1_S500000x512_1_0_0_1 : ScatterDims S100000x512 S500000x1 S500000x512 where
  updateWindowDims := [1]
  insertedWindowDims := [0]
  scatterDimsToOperandDims := [0]
  indexVectorDim := 1
  wf := scatter_S100000x512_S500000x1_S500000x512_1_0_0_1_wf

class Facts : Prop extends Facts₀ where

variable [Facts]
-- ==== Proof.KHost.lean ====
/-
  THE KERNEL PROGRAM'S HOST OPERATIONS, at exact (extended-real) arithmetic.

  Before the matmul region the host computes, from the edge array, the source and destination words (kRow, kCol), the
  degree (one per edge whose destination word names the node, plus one for the node's self-loop), dinv = deg^(-1/2) where
  deg > 0 else 0, its [100000, 1] column, and the weight in bf16 (the identity at exact arithmetic). The region computes
  hs = dinv · ((x · keep) W). After it the host gathers the rows hs(source), adds them up at their destinations, adds hs
  itself (the self-loop), scales by dinv, and adds the bias: kTail.
  Stated here: each stage as a function of the argument arrays, what the region finds in the two arrays the host wrote for
  it, and that the host tail's result is kTail of the region's output array and those stages.
-/
import proofs.«166703_j12472585028062_2_alg».proof.Proof.Gen.KernelIdeal.Frame
import Idealize.ShloMosaic.Lib.StableHlo.Run
import Idealize.ShloMosaic.PureOps.Ideal

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.Pipeline (Dat Cfg Window)

/-! ## The stages -/

/-- A scalar constant splat over a shape. -/
abbrev splat (t : Shape) (h : S_.BroadcastsInDim t ![]) (b : BitVec 32) : FVec Ideal t .f32 :=
  broadcastInDim t ![] h (constant (F := Ideal) S_ .f32 b)

/-- The edges' source words. -/
def kRow (x1 : IVec S2x400000 32) : IVec S400000 32 :=
  shapeCast S400000 (extractStridedSlice S1x400000 ![0, 0] x1 slices_S2x400000_S1x400000_0_0) shapeCasts_S1x400000_S400000
/-- The edges' destination words. -/
def kCol (x1 : IVec S2x400000 32) : IVec S400000 32 :=
  shapeCast S400000 (extractStridedSlice S1x400000 ![1, 0] x1 slices_S2x400000_S1x400000_1_0) shapeCasts_S1x400000_S400000

/-- A list of node words as a column of start indices. -/
abbrev asCol (v : IVec S400000 32) : IVec S400000x1 32 := broadcastInDim S400000x1 ![0] bcast_S400000_S400000x1_0 v

/-- The degree: one per edge naming the node, plus one. -/
def kDeg (x1 : IVec S2x400000 32) : FVec Ideal S100000 .f32 :=
  addf (Host.scatterAdd (F := Ideal) scatter_S100000_S400000x1_S400000_n_0_0_1 (splat S100000 bcast_S_S100000 0x00000000#32)
      (asCol (kCol x1)) (splat S400000 bcast_S_S400000 0x3F800000#32))
    (splat S100000 bcast_S_S100000 0x3F800000#32)

/-- deg^(-1/2) where deg > 0, else 0 (the degree clamped below by 1e-12 under the root). -/
def kDinv (x1 : IVec S2x400000 32) : FVec Ideal S100000 .f32 :=
  select (cmpf .ogt (kDeg x1) (splat S100000 bcast_S_S100000 0x00000000#32))
    (Host.rsqrt (F := Ideal) (maximumf (kDeg x1) (splat S100000 bcast_S_S100000 0x2B8CBCCC#32)))
    (broadcastInDim S100000 ![] bcast_S_S100000 (id (constant (F := Ideal) S_ .f32 0x00000000#32)))

/-- dinv as a column. -/
def kDinv2 (x1 : IVec S2x400000 32) : FVec Ideal S100000x1 .f32 :=
  shapeCast S100000x1 (kDinv x1) shapeCasts_S100000_S100000x1

/-- The weight narrowed to bf16: the same numbers. -/
def kW (x2 : FVec Ideal S512x512 .f32) : FVec Ideal S512x512 .bf16 := truncf .bf16 x2 bitsLt_bf16_f32

/-- A node word made a gather index: a negative word counts from the end; as a column. -/
def kWrap (v : IVec S400000 32) : IVec S400000x1 32 :=
  asCol (select (cmpi .slt v (broadcastInDim S400000 ![] bcast_S_S400000 (constantI S_ 32 0#32)))
    (addi v (broadcastInDim S400000 ![] bcast_S_S400000 (constantI S_ 32 100000#32))) v)

/-- The host operations after the region, as one function of the region's output and the earlier stages. -/
def kTail (hs : FVec Ideal S100000x512 .f32) (row col : IVec S400000 32) (d2 : FVec Ideal S100000x1 .f32)
    (x3 : FVec Ideal S512 .f32) : FVec Ideal S100000x512 .f32 :=
  addf (mulf (broadcastInDim S100000x512 ![0, 1] bcast_S100000x1_S100000x512_0_1 d2)
      (addf (Host.scatterAdd (F := Ideal) scatter_S100000x512_S400000x1_S400000x512_1_0_0_1
          (splat S100000x512 bcast_S_S100000x512 0x00000000#32) (asCol col)
          (Host.gather gather_S100000x512_S400000x1_S400000x512_1_0_n_n_0_1_1512 hs (kWrap row))) hs))
    (broadcastInDim S100000x512 ![0, 1] bcast_S1x512_S100000x512_0_1 (broadcastInDim S1x512 ![1] bcast_S512_S1x512_1 x3))

variable (m : (ℓ : Loc nD τ sig) → Buf (Elt Ideal) ℓ)

/-! ## What the host leaves before the region -/

set_option maxRecDepth 65536 in
set_option maxHeartbeats 4000000 in
theorem V0_v1 (c : Dev nD) : (V0 m c (Proc.devRef .tc main_v1) : S400000.Idx → BitVec 32) = kRow (m ((c : Thread nD τ).loc main_arg1)) := by
  dsimp only [Gen.V0]
  simp only [Gen.hostOps0, Gen.hostOps0_1, Gen.hostOps0_2, List.flatten_cons, List.flatten_nil, List.append_nil, List.cons_append,
    List.nil_append]
  after_results_simp
  unfold kRow
  rfl

set_option maxRecDepth 65536 in
set_option maxHeartbeats 4000000 in
theorem V0_v3 (c : Dev nD) : (V0 m c (Proc.devRef .tc main_v3) : S400000.Idx → BitVec 32) = kCol (m ((c : Thread nD τ).loc main_arg1)) := by
  dsimp only [Gen.V0]
  simp only [Gen.hostOps0, Gen.hostOps0_1, Gen.hostOps0_2, List.flatten_cons, List.flatten_nil, List.append_nil, List.cons_append,
    List.nil_append]
  after_results_simp
  try simp only [TRef.toBuf, TRef.ofBuf, cast_eq]
  exact rfl

set_option maxRecDepth 65536 in
set_option maxHeartbeats 4000000 in
theorem V0_v16 (c : Dev nD) : (V0 m c (Proc.devRef .tc main_v16) : S100000x1.Idx → EReal) = kDinv2 (m ((c : Thread nD τ).loc main_arg1)) := by
  dsimp only [Gen.V0]
  simp only [Gen.hostOps0, Gen.hostOps0_1, Gen.hostOps0_2, List.flatten_cons, List.flatten_nil, List.append_nil, List.cons_append,
    List.nil_append]
  after_results_simp
  try simp only [TRef.toBuf, TRef.ofBuf, cast_eq]
  exact rfl

set_option maxRecDepth 65536 in
set_option maxHeartbeats 4000000 in
theorem V0_v17 (c : Dev nD) : (V0 m c (Proc.devRef .tc main_v17) : S512x512.Idx → EReal) = kW (m ((c : Thread nD τ).loc main_arg2)) := by
  dsimp only [Gen.V0]
  simp only [Gen.hostOps0, Gen.hostOps0_1, Gen.hostOps0_2, List.flatten_cons, List.flatten_nil, List.append_nil, List.cons_append,
    List.nil_append]
  after_results_simp
  try simp only [TRef.toBuf, TRef.ofBuf, cast_eq]
  exact rfl

theorem V0_arg3 (c : Dev nD) : (V0 m c (Proc.devRef .tc main_arg3) : S512.Idx → EReal) = m ((c : Thread nD τ).loc main_arg3) :=
  V_main_arg3 m c

end Cert.KernelIdeal.KValue

end
-- ==== Proof.LibLayoutAt.lean ====
/-
  LAYOUT OPERATIONS OF SMALL RANK READ AT AN INDEX GIVEN BY ITS COORDINATES.

  A scalar broadcast to any shape reads the scalar. A length-n vector made an n × 1 column (by broadcast along axis 0, or
  by a reshape) reads, at (p, ·), the vector at p; an n × 1 column spread over k columns (by broadcast_in_dim or by the vector
  unit's broadcast) reads, at (p, c), the column at (p, 0). A length-k vector made a 1 × k row reads, at (·, c), the vector at
  c; a 1 × k row spread over n rows reads, at (p, c), the row at (0, c). Row r of a 2 × n array, sliced out as 1 × n and
  reshaped to length n, reads at e the array at (r, e). Two vectors laid end to end read, at a position in the first piece,
  the first vector there, and at a position past it, the second vector at the position less the first's length. The iota
  along the one axis of a vector reads, at i, the word i.
-/
import Idealize.ShloMosaic.Lib.Pipeline.Value
import Idealize.ShloMosaic.Lib.ValueIdx
import Idealize.ShloMosaic.Lib.IdealHost

noncomputable section

namespace Cert.LibLayoutAt

open Idealize.ShloMosaic Idealize.ShloMosaic.ValueIdx

variable {α : Type}

/-- A scalar broadcast to any shape reads the scalar. -/
theorem bcast_scalar_apply (t : Shape) (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A length-n vector broadcast along axis 0 of [n, 1] reads, at (p, u), the vector at p. -/
theorem bcast_a_a1_apply {n : ℕ} (v : (⟨1, ![n]⟩ : Shape).Idx → α)
    (h : (⟨1, ![n]⟩ : Shape).BroadcastsInDim ⟨2, ![n, 1]⟩ ![0]) (p : Fin n) (u : Fin 1) :
    broadcastInDim ⟨2, ![n, 1]⟩ ![0] h v (ix2 p u) = v (ix1 p) :=
  broadcastInDim_apply _ h v (ix2 p u) (ix1 p) (fun b => by
    match b with
    | ⟨0, _⟩ =>
      show p.val = if n = 1 then 0 else p.val
      split
      · have := p.isLt; omega
      · rfl)

/-- An [n, 1] column broadcast along axes 0, 1 of [n, k] reads, at (p, c), the column at (p, 0). -/
theorem bcast_a1_ab_apply {n k : ℕ} (w : (⟨2, ![n, 1]⟩ : Shape).Idx → α)
    (h : (⟨2, ![n, 1]⟩ : Shape).BroadcastsInDim ⟨2, ![n, k]⟩ ![0, 1]) (p : Fin n) (c : Fin k) :
    broadcastInDim ⟨2, ![n, k]⟩ ![0, 1] h w (ix2 p c) = w (ix2 p (0 : Fin 1)) :=
  broadcastInDim_apply _ h w (ix2 p c) (ix2 p (0 : Fin 1)) (fun b => by
    match b with
    | ⟨0, _⟩ =>
      show p.val = if n = 1 then 0 else p.val
      split
      · have := p.isLt; omega
      · rfl
    | ⟨1, _⟩ => rfl)

/-- A length-k vector broadcast along axis 1 of [1, k] reads, at (u, c), the vector at c. -/
theorem bcast_a_1a_apply {k : ℕ} (x : (⟨1, ![k]⟩ : Shape).Idx → α)
    (h : (⟨1, ![k]⟩ : Shape).BroadcastsInDim ⟨2, ![1, k]⟩ ![1]) (u : Fin 1) (c : Fin k) :
    broadcastInDim ⟨2, ![1, k]⟩ ![1] h x (ix2 u c) = x (ix1 c) :=
  broadcastInDim_apply _ h x (ix2 u c) (ix1 c) (fun b => by
    match b with
    | ⟨0, _⟩ =>
      show c.val = if k = 1 then 0 else c.val
      split
      · have := c.isLt; omega
      · rfl)

/-- A [1, k] row broadcast along axes 0, 1 of [n, k] reads, at (p, c), the row at (0, c). -/
theorem bcast_1b_ab_apply {n k : ℕ} (w : (⟨2, ![1, k]⟩ : Shape).Idx → α)
    (h : (⟨2, ![1, k]⟩ : Shape).BroadcastsInDim ⟨2, ![n, k]⟩ ![0, 1]) (p : Fin n) (c : Fin k) :
    broadcastInDim ⟨2, ![n, k]⟩ ![0, 1] h w (ix2 p c) = w (ix2 (0 : Fin 1) c) :=
  broadcastInDim_apply _ h w (ix2 p c) (ix2 (0 : Fin 1) c) (fun b => by
    match b with
    | ⟨0, _⟩ => rfl
    | ⟨1, _⟩ =>
      show c.val = if k = 1 then 0 else c.val
      split
      · have := c.isLt; omega
      · rfl)

/-- A length-n vector reshaped to [n, 1] reads, at (i, u), the vector at i. -/
theorem shapeCast_a_a1_apply {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [n, 1] column broadcast by the vector unit to [n, k] reads, at (p, c), the column at (p, 0). -/
theorem broadcastTo_a1_ab_apply {n k : ℕ} (v : (⟨2, ![n, 1]⟩ : Shape).Idx → α)
    (h : (⟨2, ![n, 1]⟩ : Shape).Broadcasts ⟨2, ![n, k]⟩) (p : Fin n) (c : Fin k) :
    broadcastTo ⟨2, ![n, k]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

/-- ROW r OF A 2 × n ARRAY, sliced out as 1 × n and reshaped to length n, reads at e the array at (r, e). -/
theorem row_of_pair_apply {n : ℕ} (r : Fin 2) (x : (⟨2, ![2, n]⟩ : Shape).Idx → α)
    (hs : (⟨2, ![2, n]⟩ : Shape).Slices ![r.val, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![r.val, 0] x hs) hc (ix1 e) = x (ix2 r e) := by
  rw [shapeCast_apply (extractStridedSlice ⟨2, ![1, n]⟩ ![r.val, 0] x hs) hc (ix1 e) (ix2 (0 : Fin 1) e) (by
    rw [Shape.rowMajor_val_two, Shape.rowMajor_val_one]
    show 0 * n + e.val = e.val
    omega)]
  exact extractStridedSlice_apply _ x hs (ix2 (0 : Fin 1) e) (ix2 r e) (fun a => by
    match a with
    | ⟨0, _⟩ => show r.val = r.val + 0; omega
    | ⟨1, _⟩ => show e.val = 0 + e.val; omega)

/-- Two vectors laid end to end, read in the FIRST piece. -/
theorem concat_vec_left {A B C : ℕ} (x₁ : (⟨1, ![A]⟩ : Shape).Idx → α) (x₂ : (⟨1, ![B]⟩ : Shape).Idx → α)
    (h : Shape.Concatenates [⟨1, ![A]⟩, ⟨1, ![B]⟩] ⟨1, ![C]⟩ (0 : Fin 1)) (e' : Fin C) (e : Fin A) (he : e'.val = e.val) :
    concatenate ⟨1, ![C]⟩ (0 : Fin 1) [⟨⟨1, ![A]⟩, x₁⟩, ⟨⟨1, ![B]⟩, x₂⟩] h (ix1 e') = x₁ (ix1 e) :=
  concatenate_pair_apply_left (0 : Fin 1) x₁ x₂ h (ix1 e') rfl (ix1 e) (fun b => by
    match b with
    | ⟨0, _⟩ => exact he.symm)

/-- Two vectors laid end to end, read in the SECOND piece. -/
theorem concat_vec_right {A B C : ℕ} (x₁ : (⟨1, ![A]⟩ : Shape).Idx → α) (x₂ : (⟨1, ![B]⟩ : Shape).Idx → α)
    (h : Shape.Concatenates [⟨1, ![A]⟩, ⟨1, ![B]⟩] ⟨1, ![C]⟩ (0 : Fin 1)) (e' : Fin C) (i : Fin B) (he : e'.val = A + i.val) :
    concatenate ⟨1, ![C]⟩ (0 : Fin 1) [⟨⟨1, ![A]⟩, x₁⟩, ⟨⟨1, ![B]⟩, x₂⟩] h (ix1 e') = x₂ (ix1 i) :=
  concatenate_pair_apply_right (0 : Fin 1) x₁ x₂ h (ix1 e') rfl rfl (ix1 i)
    (fun b hb => by
      match b with
      | ⟨0, _⟩ => exact absurd rfl hb)
    (by show i.val + A = e'.val; omega)

/-- The iota along the one axis of a vector reads, at i, the word i. -/
theorem iota_vec_apply {n : ℕ} (w : ℕ) (i : Fin n) :
    iotaInDim (⟨1, ![n]⟩ : Shape) w 0 (ix1 i) = BitVec.ofNat w i.val := rfl

end Cert.LibLayoutAt

end
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.KBlock.lean ====
/-
  THE MATMUL REGION'S OUTPUT ARRAY, at exact (extended-real) arithmetic.

  The region runs over 50 points; at point t it loads rows 2000 t … 2000 t + 1999 of x, of the mask and of the dinv column,
  and the whole weight, and writes rows 2000 t … 2000 t + 1999 of the output. Row p of a block, column q:
      ( Σ_k (x(p,k) · keep(p,k)) · W(k,q) ) · dinv(p),      keep = (mask ≥ 0.1, as 0 or 1) · 1/0.9,
  where 1/0.9 is the named constant (the exact reciprocal of the f32 nearest 0.9) — narrowing the products to bf16 is the
  identity at exact arithmetic, and the matrix unit's product into a zero accumulator is the plain sum. The 50 blocks tile
  the output's rows, so the array ends holding kHs: that formula at every (n, q), with row n of the arguments.
-/
import proofs.«166703_j12472585028062_2_alg».proof.Proof.KHost
import proofs.«166703_j12472585028062_2_alg».proof.Proof.LibLayoutAt
import proofs.«166703_j12472585028062_2_alg».proof.Proof.LibPlainMatmul
import Idealize.ShloMosaic.Lib.Pipeline.Value

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.LibLayoutAt
open Idealize.ShloMosaic.Pipeline (Dat Cfg Window)

/-- The dropout scale at one entry, as the vector unit spells it: (mask ≥ 0.1) widened to a word and converted, times the
    named reciprocal of 0.9. -/
def keepK (mk : EReal) : EReal :=
  FloatOps.sitofp (F := Ideal) .f32 ((FloatOps.cmpf (F := Ideal) (φ := .f32) .oge mk (Ideal.ofBits .f32 0x3DCCCCCD#32)).setWidth 32)
    * Named.named (F := Ideal) κ "inv_keep" (φ := .f32) 0x3F8E38E4#32

/-- The output at node n, column j: the scaled, dropped-out features of n times the weight's column j, times dinv(n). -/
def kHsAt (x0 x4 : FVec Ideal S100000x512 .f32) (w : FVec Ideal S512x512 .bf16) (d : FVec Ideal S100000x1 .f32)
    (n : Fin 100000) (j : Fin 512) : EReal :=
  (∑ k : Fin 512, (x0 (ix2 n k) * keepK (x4 (ix2 n k))) * w (ix2 k j)) * d (ix2 n (0 : Fin 1))

/-- The output array. -/
def kHs (x0 x4 : FVec Ideal S100000x512 .f32) (w : FVec Ideal S512x512 .bf16) (d : FVec Ideal S100000x1 .f32) :
    FVec Ideal S100000x512 .f32 := fun i => kHsAt x0 x4 w d (i 0) (i 1)

/-- THE BODY'S PAYLOAD AT (p, q), from its four loaded blocks. -/
theorem pay_apply (mk xb : Vec Ideal S2000x512 .f32) (wb : Vec Ideal S512x512 .bf16) (db : Vec Ideal S2000x1 .f32)
    (p : Fin 2000) (q : Fin 512) :
    k0_pay1 (F := Ideal) mk xb wb db (ix2 p q)
      = (∑ k : Fin 512, (xb (ix2 p k) * keepK (mk (ix2 p k))) * wb (ix2 k q)) * db (ix2 p (0 : Fin 1)) := by
  unfold k0_pay1
  refine (mulf_apply _ _ _).trans ?_
  congr 1
  · refine (Cert.LibPlainMatmul.matmul_plain_apply none _ _ p q).trans ?_
    refine Finset.sum_congr rfl fun k _ => ?_
    rw [shapeCast_self]
    rfl
  · rw [broadcastTo_a1_ab_apply, shapeCast_self]

variable (m : (ℓ : Loc nD τ sig) → Buf (Elt Ideal) ℓ)

theorem hz : (![0, 0] : Fin 2 → Nat) = fun _ => 0 := funext fun a => by fin_cases a <;> rfl

/-- The printed index maps, decided over the grid: the row blocks move with the point, the weight stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of point t's blocks is row 2000 t + p of the arrays. -/
def rowAt (t : Fin cfg0.N) (p : Fin 2000) : Fin 100000 := ⟨t.val * 2000 + p.val, by
  have := t.isLt; have h50 : cfg0.N = 50 := N_0; have := p.isLt; omega⟩

/-- THE BODY'S PAYLOAD IS kHs ON THE BLOCK: if the four loaded blocks are rows 2000 t … of the arrays (the weight whole), the
    payload at (p, q) is kHs of the arrays at (2000 t + p, q). -/
theorem blk_eq (A0 A4 : FVec Ideal S100000x512 .f32) (A17 : FVec Ideal S512x512 .bf16) (A16 : FVec Ideal S100000x1 .f32)
    (t : Fin cfg0.N) (b0 b1 : Vec Ideal S2000x512 .f32) (b2 : Vec Ideal S512x512 .bf16) (b3 : Vec Ideal S2000x1 .f32)
    (p : Fin 2000) (q : Fin 512)
    (hb0 : ∀ k : Fin 512, b0 (ix2 p k) = A0 (ix2 (rowAt t p) k))
    (hb1 : ∀ k : Fin 512, b1 (ix2 p k) = A4 (ix2 (rowAt t p) k))
    (hb2 : ∀ k : Fin 512, b2 (ix2 k q) = A17 (ix2 k q))
    (hb3 : b3 (ix2 p (0 : Fin 1)) = A16 (ix2 (rowAt t p) (0 : Fin 1))) :
    k0_pay1 (F := Ideal) b1 b0 b2 b3 (ix2 p q) = kHs A0 A4 A17 A16 (ix2 (rowAt t p) q) := by
  rw [pay_apply]
  unfold kHs kHsAt
  rw [hb3]
  refine congrArg (fun s : EReal => s * A16 (ix2 (rowAt t p) (0 : Fin 1))) (Finset.sum_congr rfl fun k _ => ?_)
  rw [hb0 k, hb1 k, hb2 k]

set_option maxHeartbeats 4000000 in
/-- WHAT POINT t WRITES BACK is block t of kHs of the arrays as the region finds them. -/
theorem flushed_eq (c : Dev nD) (t : Fin cfg0.N) :
    (dats m 0 c).flushed 4 t = ((cfg0.win 4).blk t).view.read (Elt Ideal)
      (kHs (V m c main_arg0) (V m c main_arg4) (V m c main_v17) (V m c main_v16)) := by
  show (cfg0.win 4).cut (grid0.coords t) ((dats m 0 c).after 4 t) = _
  rw [after0_4]
  unfold out0_4
  rw [View.canon_unit_zero hz]
  simp only [View.ld_unit_zero (S := S2000x512) hz, View.ld_unit_zero (S := S512x512) hz, View.ld_unit_zero (S := S2000x1) hz]
  obtain ⟨e00, e01, e10, e11, e20, e21, e30, e31, e40, e41⟩ := idx_facts t
  funext j
  obtain ⟨p, q, rfl⟩ : ∃ (p : Fin 2000) (q : Fin 512), j = ix2 p q := ⟨j 0, j 1, eq_ix2 j⟩
  have h0 : ∀ k : Fin 512, ((cfg0.win 0).blk t).view.emb (ix2 p k) = ix2 (rowAt t p) k := fun k => by
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  have h1 : ∀ k : Fin 512, ((cfg0.win 1).blk t).view.emb (ix2 p k) = ix2 (rowAt t p) k := fun k => by
    funext a; apply Fin.ext
    match a with
    | ⟨0, _⟩ => show win0_1.index t (0 : Fin 2) * 2000 + 1 * p.val = t.val * 2000 + p.val; omega
    | ⟨1, _⟩ => show win0_1.index t (1 : Fin 2) * 512 + 1 * k.val = k.val; omega
  have h2 : ∀ k : Fin 512, ((cfg0.win 2).blk t).view.emb (ix2 k q) = ix2 k q := fun k => by
    funext a; apply Fin.ext
    match a with
    | ⟨0, _⟩ => show win0_2.index t (0 : Fin 2) * 512 + 1 * k.val = k.val; omega
    | ⟨1, _⟩ => show win0_2.index t (1 : Fin 2) * 512 + 1 * q.val = q.val; omega
  have h3 : ((cfg0.win 3).blk t).view.emb (ix2 p (0 : Fin 1)) = ix2 (rowAt t p) (0 : Fin 1) := by
    funext a; apply Fin.ext
    match a with
    | ⟨0, _⟩ => show win0_3.index t (0 : Fin 2) * 2000 + 1 * p.val = t.val * 2000 + p.val; omega
    | ⟨1, _⟩ => show win0_3.index t (1 : Fin 2) * 1 + 1 * 0 = 0; omega
  have h4 : ((cfg0.win 4).blk t).view.emb (ix2 p q) = ix2 (rowAt t p) q := by
    funext a; apply Fin.ext
    match a with
    | ⟨0, _⟩ => show win0_4.index t (0 : Fin 2) * 2000 + 1 * p.val = t.val * 2000 + p.val; omega
    | ⟨1, _⟩ => show win0_4.index t (1 : Fin 2) * 512 + 1 * q.val = q.val; omega
  show k0_pay1 (F := Ideal) (iblk m c 1 t) (iblk m c 0 t) (iblk m c 2 t) (iblk m c 3 t) (ix2 p q)
    = kHs (V m c main_arg0) (V m c main_arg4) (V m c main_v17) (V m c main_v16) (((cfg0.win 4).blk t).view.emb (ix2 p q))
  rw [h4]
  refine blk_eq (V m c main_arg0) (V m c main_arg4) (V m c main_v17) (V m c main_v16) t (iblk m c 0 t) (iblk m c 1 t)
    (iblk m c 2 t) (iblk m c 3 t) p q (fun k => ?_) (fun k => ?_) (fun k => ?_) ?_
  · show V m c main_arg0 (((cfg0.win 0).blk t).view.emb (ix2 p k)) = _
    rw [h0 k]
  · show V m c main_arg4 (((cfg0.win 1).blk t).view.emb (ix2 p k)) = _
    rw [h1 k]
  · show V m c main_v17 (((cfg0.win 2).blk t).view.emb (ix2 k q)) = _
    rw [h2 k]
  · show V m c main_v16 (((cfg0.win 3).blk t).view.emb (ix2 p (0 : Fin 1))) = _
    rw [h3]

/-- An index of the output array is in point t's block iff each coordinate is in the block's range on its axis. -/
theorem mem_blk4 (t : Fin cfg0.N) (i : S100000x512.Idx) :
    i ∈ ((cfg0.win 4).blk t).view.set ↔ ∀ a : Fin 2, win0_4.index t a * S2000x512.size a ≤ (i a).val
      ∧ (i a).val < win0_4.index t a * S2000x512.size a + S2000x512.size a := by
  show i ∈ ((View.whole main_v18).slice (win0_4.rect t)).set ↔ _
  rw [View.set_slice_whole, Rect.mem_set_unit]
  exact Iff.rfl

/-- Every block of rows is some point's. -/
theorem idx_onto : ∀ q0 : Fin 50, ∃ t : Fin cfg0.N, win0_4.index t = ![q0.val, 0] :=
  (by decide +kernel : ∀ q0 : Fin 50, ∃ t : Fin grid0.N, win0_4.index t = ![q0.val, 0])

/-- The 50 blocks cover the output array: row r is in the block of point r / 2000. -/
theorem cover4 (i : S100000x512.Idx) :
    ∃ t : Fin cfg0.N, (cfg0.win 4).flush t = true ∧ i ∈ ((cfg0.win 4).blk t).view.set := by
  have hi0 : (i 0).val < 100000 := (i 0).isLt
  have hi1 : (i 1).val < 512 := (i 1).isLt
  obtain ⟨t, ht⟩ := idx_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk4]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 512 ≤ (i 1).val ∧ (i 1).val < win0_4.index t (1 : Fin 2) * 512 + 512
    omega

/-- THE OUTPUT ARRAY after the region: kHs of the arrays as the region finds them. -/
theorem final4 (c : Dev nD) :
    (dats m 0 c).arrAt 4 cfg0.N = kHs (V m c main_arg0) (V m c main_arg4) (V m c main_v17) (V m c main_v16) :=
  (dats m 0 c).arrAt_eq_of_cover 4 _ (fun t _ => flushed_eq m c t) cover4

end Cert.KernelIdeal.KValue

end
-- ==== Proof.KRun.lean ====
/-
  THE KERNEL PROGRAM'S RUN, at exact (extended-real) arithmetic.

  After the region the host's operations read the region's output array (which holds kHs of the argument arrays and the
  host's earlier stages), the source and destination words, the dinv column and the bias, none of which the region changed.
  So the result buffer ends at kOut of the arguments: kTail of those.
-/
import proofs.«166703_j12472585028062_2_alg».proof.Proof.KBlock

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.Pipeline (Dat Cfg Window)

/-- The kernel program's result as a function of the argument arrays. -/
def kOut (x0 : FVec Ideal S100000x512 .f32) (x1 : IVec S2x400000 32) (x2 : FVec Ideal S512x512 .f32)
    (x3 : FVec Ideal S512 .f32) (x4 : FVec Ideal S100000x512 .f32) : FVec Ideal S100000x512 .f32 :=
  kTail (kHs x0 x4 (kW x2) (kDinv2 x1)) (kRow x1) (kCol x1) (kDinv2 x1) x3

variable (m : (ℓ : Loc nD τ sig) → Buf (Elt Ideal) ℓ)

/-- The buffers after the region: the pipeline's arrays at their final contents, everything else as the region found it. -/
abbrev Wv (c : Dev nD) : Valuation τ sig (Elt Ideal) :=
  Pipeline.withArrays (cfgs 0).spec c (V0 m c) fun w => (dats m 0 c).arrAt w (cfgs 0).N

set_option maxRecDepth 65536 in
set_option maxHeartbeats 4000000 in
/-- The host tail's result is kTail of what it reads. -/
theorem tail_term (c : Dev nD) (W : Valuation τ sig (Elt Ideal)) :
    (StableHlo.after hostOps1 W (Proc.devRef .tc main_v34) : S100000x512.Idx → EReal)
      = kTail (W (Proc.devRef .tc main_v18)) (W (Proc.devRef .tc main_v1)) (W (Proc.devRef .tc main_v3))
          (W (Proc.devRef .tc main_v16)) (W (Proc.devRef .tc main_arg3)) := by
  simp only [Gen.hostOps1]
  after_results_simp
  exact rfl

theorem Wv_v18 (c : Dev nD) : (Wv m c (Proc.devRef .tc main_v18) : S100000x512.Idx → EReal)
    = kHs (m ((c : Thread nD τ).loc main_arg0)) (m ((c : Thread nD τ).loc main_arg4)) (kW (m ((c : Thread nD τ).loc main_arg2)))
        (kDinv2 (m ((c : Thread nD τ).loc main_arg1))) := by
  refine (Pipeline.withArrays_arr spec0 launch0.win.arr_inj c _ _ 4).trans ((final4 m c).trans ?_)
  rw [V_main_arg0, V_main_arg4]
  show kHs _ _ (V0 m c (Proc.devRef .tc main_v17)) (V0 m c (Proc.devRef .tc main_v16)) = _
  rw [V0_v17, V0_v16]

theorem Wv_v1 (c : Dev nD) : (Wv m c (Proc.devRef .tc main_v1) : S400000.Idx → BitVec 32) = kRow (m ((c : Thread nD τ).loc main_arg1)) :=
  (Pipeline.withArrays_of_ne _ c (V0 m c) _ main_v1 (by exact (by decide : ∀ w, Pipeline.arrRef spec0 w ≠ main_v1))).trans (V0_v1 m c)

theorem Wv_v3 (c : Dev nD) : (Wv m c (Proc.devRef .tc main_v3) : S400000.Idx → BitVec 32) = kCol (m ((c : Thread nD τ).loc main_arg1)) :=
  (Pipeline.withArrays_of_ne _ c (V0 m c) _ main_v3 (by exact (by decide : ∀ w, Pipeline.arrRef spec0 w ≠ main_v3))).trans (V0_v3 m c)

theorem Wv_v16 (c : Dev nD) : (Wv m c (Proc.devRef .tc main_v16) : S100000x1.Idx → EReal) = kDinv2 (m ((c : Thread nD τ).loc main_arg1)) :=
  (Pipeline.withArrays_arr spec0 launch0.win.arr_inj c _ _ 3).trans
    (((dats m 0 c).arrAt_in 3 rfl _).trans ((A_eq m c 3).trans (V0_v16 m c)))

theorem Wv_arg3 (c : Dev nD) : (Wv m c (Proc.devRef .tc main_arg3) : S512.Idx → EReal) = m ((c : Thread nD τ).loc main_arg3) :=
  (Pipeline.withArrays_of_ne _ c (V0 m c) _ main_arg3 (by exact (by decide : ∀ w, Pipeline.arrRef spec0 w ≠ main_arg3))).trans (V_main_arg3 m c)

/-- The result buffer after the host tail. -/
theorem tail_eq (c : Dev nD) :
    (Pipeline.afterTail₀ cfgs (dats m) 0 (V0 m) [hostOps1] c main_v34 : S100000x512.Idx → EReal)
      = kOut (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 (Wv m c) (Proc.devRef .tc main_v34) = _
  rw [tail_term c (Wv m c), Wv_v18, Wv_v1, Wv_v3, Wv_v16, Wv_arg3]
  rfl

/-- THE RUN: every weakly fair execution of the kernel program terminates with the result buffer at kOut of the arguments
    and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v34) = kOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v34 (Pipeline.mem_restRefs_of main_v34 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c)))⟩)
    (run_main m ρ)

end Cert.KernelIdeal.KValue

end
-- ==== Proof.LibRowGatherScatter.lean ====
/-
  ROW GATHER AND ROW SCATTER READ AT AN INDEX: what the host operations stablehlo.gather and stablehlo.scatter do at one
  element when they move whole rows of a rank-2 array (or single elements of a rank-1 array) selected by a column of
  start indices [R, 1].

  rowOf is the row a start index selects under gather's rule: the index word read as a signed integer and clamped into
  [0, N - 1] (rowOf_eq_of_toInt: it is n when the word reads as n < N). gather_rows_apply: a gather of an [N, C] operand
  with offset_dims [1], collapsed_slice_dims [0], start_index_map [0], index_vector_dim 1, slice_sizes [1, C] at (r, c)
  is the operand at (rowOf r, c). gather_elems_apply: the same for an [N] operand with no offset axis and slice_sizes [1].
  scatter_rows_resultIdx?_eq_some_iff: under scatter's dimension numbers update_window_dims [1], inserted_window_dims [0],
  scatter_dims_to_operand_dims [0], index_vector_dim 1, update element (r, c) lands on operand element (n, c') exactly
  when the index word of row r, read signed and NOT clamped, is n, and the column is the same.
-/
import Idealize.ShloMosaic.PureOps.Contract
import Idealize.ShloMosaic.PureOps.ShapeOps
import Idealize.ShloMosaic.PureOps.Dims
import Idealize.ShloMosaic.Lib.ValueIdx

namespace Idealize.ShloMosaic.RowGatherScatter

open Idealize.ShloMosaic Idealize.ShloMosaic.ValueIdx

/-- The row a start index selects: the index word of row r read signed, clamped into [0, N - 1]. -/
def rowOf {N R w : ℕ} (hN : 0 < N) (idx : IVec ⟨2, ![R, 1]⟩ w) (r : Fin R) : Fin N :=
  ⟨min (idx (ix2 r 0)).toInt.toNat (N - 1), by omega⟩

/-- An index word that reads as n, a row of the operand, selects row n: the clamp does nothing. -/
theorem rowOf_eq_of_toInt {N R w : ℕ} (hN : 0 < N) (idx : IVec ⟨2, ![R, 1]⟩ w) (r : Fin R) (n : Fin N)
    (h : (idx (ix2 r 0)).toInt = (n.val : ℤ)) : rowOf hN idx r = n := by
  refine Fin.ext ?_
  show min (idx (ix2 r 0)).toInt.toNat (N - 1) = n.val
  rw [h, Int.toNat_natCast]
  have := n.isLt
  omega

/-! ## The row gather -/

/-- The row gather's dimension numbers, literal, over any proof of their conditions. -/
abbrev rowsDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at the literal dimension numbers. -/
theorem gather_rows_lit {α : Type} {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c) = x (ix2 (rowOf hN idx r) c) := by
  unfold Host.gather
  congr 1
  funext a
  refine Fin.ext ?_
  match a with
  | ⟨0, _⟩ =>
    -- the row axis: collapsed, so no offset; its start is the clamped index
    show (rowsDims N C R wf).start (ix2 r c) idx 0 + (rowsDims N C R wf).batchCoord (ix2 r c) 0
      + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    -- the column axis: not in the start index map, so start 0; its offset is the result's column
    show (rowsDims N C R wf).start (ix2 r c) idx 1 + (rowsDims N C R wf).batchCoord (ix2 r c) 1
      + (rowsDims N C R wf).offCoord (ix2 r c) 1 = c.val
    rw [GatherDims.batchCoord_eq_zero _ _ _ List.not_mem_nil]
    unfold GatherDims.start
    rw [dif_neg (show (1 : Fin 2) ∉ (rowsDims N C R wf).startIndexMap by show (1 : Fin 2) ∉ [(0 : Fin 2)]; decide)]
    unfold GatherDims.offCoord
    rw [dif_pos (show (1 : Fin 2) ∈ (rowsDims N C R wf).sKept from
      (GatherDims.mem_sKept _ _).mpr ⟨by show (1 : Fin 2) ∉ [(0 : Fin 2)]; decide, List.not_mem_nil⟩)]
    simp only [Nat.zero_add]
    rfl

/-- A ROW GATHER READ AT (r, c): result row r is the operand's row at the clamped start index, the column kept. -/
theorem gather_rows_apply {α : Type} {N C R w : ℕ} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c) = x (ix2 (rowOf hN idx r) c) := by
  obtain ⟨od, cd, ob, sb, sm, iv, ss, wf⟩ := d
  simp only at h1 h2 h3 h4 h5 h6 h7
  subst h1 h2 h3 h4 h5 h6 h7
  exact gather_rows_lit hN wf x idx r c

/-! ## The element gather -/

/-- The element gather's dimension numbers, literal, over any proof of their conditions. -/
abbrev elemsDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The element gather at the literal dimension numbers. -/
theorem gather_elems_lit {α : Type} {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (elemsDims N R wf) x idx (ix1 r) = x (ix1 (rowOf hN idx r)) := by
  unfold Host.gather
  congr 1
  funext a
  obtain rfl : a = 0 := Subsingleton.elim _ _
  refine Fin.ext ?_
  show (elemsDims N R wf).start (ix1 r) idx 0 + (elemsDims N R wf).batchCoord (ix1 r) 0
    + (elemsDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N R wf).startIndexMap from List.mem_singleton.mpr rfl)]
  have hsi : (elemsDims N R wf).siIdx (ix1 r) ⟨List.idxOf (0 : Fin 1) (elemsDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- AN ELEMENT GATHER READ AT r: result element r is the operand's element at the clamped start index. -/
theorem gather_elems_apply {α : Type} {N R w : ℕ} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (r : Fin R) :
    Host.gather d x idx (ix1 r) = x (ix1 (rowOf hN idx r)) := by
  obtain ⟨od, cd, ob, sb, sm, iv, ss, wf⟩ := d
  simp only at h1 h2 h3 h4 h5 h6 h7
  subst h1 h2 h3 h4 h5 h6 h7
  exact gather_elems_lit hN wf x idx r

/-! ## The row scatter -/

/-- The row scatter's dimension numbers, literal, over any proof of their conditions. -/
abbrev scatDims (N C R : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatLit
variable {N C R w : ℕ} (wf : ScatterDims.WF ⟨2, ![N, C]⟩ ⟨2, ![R, 1]⟩ ⟨2, ![R, C]⟩ [1] [0] [0] 1)
  (idx : IVec ⟨2, ![R, 1]⟩ w) (r : Fin R) (c : Fin C)

/-- On the row axis the window starts at the index word of row r, read signed. -/
theorem scat_start0 : (scatDims N C R wf).start (ix2 r c) idx 0 = (idx (ix2 r 0)).toInt := by
  unfold ScatterDims.start
  rw [dif_pos (show (0 : Fin 2) ∈ (scatDims N C R wf).scatterDimsToOperandDims from List.mem_singleton.mpr rfl)]
  have hsi : (scatDims N C R wf).siIdx (ix2 r c) ⟨List.idxOf (0 : Fin 2) (scatDims N C R wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- On the column axis, which the map does not name, the window starts at 0. -/
theorem scat_start1 : (scatDims N C R wf).start (ix2 r c) idx 1 = 0 := by
  unfold ScatterDims.start
  rw [dif_neg (show (1 : Fin 2) ∉ (scatDims N C R wf).scatterDimsToOperandDims by show (1 : Fin 2) ∉ [(0 : Fin 2)]; decide)]

/-- The row axis is inserted: window coordinate 0. -/
theorem scat_window0 : (scatDims N C R wf).window (ix2 r c) 0 = 0 := by
  unfold ScatterDims.window
  rw [dif_neg (show (0 : Fin 2) ∉ (scatDims N C R wf).sKept by
    show (0 : Fin 2) ∉ (List.finRange 2).filter (fun a => decide (a ∉ [(0 : Fin 2)])); decide)]

/-- The column axis carries the update's column. -/
theorem scat_window1 : (scatDims N C R wf).window (ix2 r c) 1 = c.val := by
  unfold ScatterDims.window
  rw [dif_pos (show (1 : Fin 2) ∈ (scatDims N C R wf).sKept by
    show (1 : Fin 2) ∈ (List.finRange 2).filter (fun a => decide (a ∉ [(0 : Fin 2)])); decide)]
  rfl

end ScatLit

/-- The row scatter's target at the literal dimension numbers. -/
theorem scatter_rows_lit {N C R w : ℕ} (wf : ScatterDims.WF ⟨2, ![N, C]⟩ ⟨2, ![R, 1]⟩ ⟨2, ![R, C]⟩ [1] [0] [0] 1)
    (idx : IVec ⟨2, ![R, 1]⟩ w) (r : Fin R) (c : Fin C) (n : Fin N) (c' : Fin C) :
    (scatDims N C R wf).resultIdx? (ix2 r c) idx = some (ix2 n c') ↔ (idx (ix2 r 0)).toInt = (n.val : ℤ) ∧ c = c' := by
  have hs0 := scat_start0 wf idx r c
  have hs1 := scat_start1 wf idx r c
  have hw0 := scat_window0 wf r c
  have hw1 := scat_window1 wf r c
  unfold ScatterDims.resultIdx?
  split
  · rename_i h
    rw [Option.some.injEq]
    constructor
    · intro he
      have e0 := congrArg Fin.val (congrFun he 0)
      have e1 := congrArg Fin.val (congrFun he 1)
      have b0 := (h 0).1
      have b1 := (h 1).1
      simp only [hs0, hs1, hw0, hw1] at e0 e1 b0 b1
      change ((idx (ix2 r 0)).toInt + ((0 : ℕ) : ℤ)).toNat = n.val at e0
      change ((0 : ℤ) + (c.val : ℤ)).toNat = c'.val at e1
      refine ⟨by omega, Fin.ext (by omega)⟩
    · rintro ⟨hn, rfl⟩
      funext a
      refine Fin.ext ?_
      match a with
      | ⟨0, _⟩ =>
        show ((scatDims N C R wf).start (ix2 r c) idx 0 + ((scatDims N C R wf).window (ix2 r c) 0 : ℤ)).toNat = n.val
        rw [hs0, hw0, hn]; omega
      | ⟨1, _⟩ =>
        show ((scatDims N C R wf).start (ix2 r c) idx 1 + ((scatDims N C R wf).window (ix2 r c) 1 : ℤ)).toNat = c.val
        rw [hs1, hw1]; omega
  · rename_i h
    constructor
    · intro he; cases he
    · rintro ⟨hn, rfl⟩
      exfalso
      apply h
      intro a
      match a with
      | ⟨0, _⟩ =>
        show 0 ≤ (scatDims N C R wf).start (ix2 r c) idx 0 + ((scatDims N C R wf).window (ix2 r c) 0 : ℤ) ∧
          (scatDims N C R wf).start (ix2 r c) idx 0 + ((scatDims N C R wf).window (ix2 r c) 0 : ℤ) < (N : ℤ)
        rw [hs0, hw0, hn]
        have := n.isLt
        omega
      | ⟨1, _⟩ =>
        show 0 ≤ (scatDims N C R wf).start (ix2 r c) idx 1 + ((scatDims N C R wf).window (ix2 r c) 1 : ℤ) ∧
          (scatDims N C R wf).start (ix2 r c) idx 1 + ((scatDims N C R wf).window (ix2 r c) 1 : ℤ) < (C : ℤ)
        rw [hs1, hw1]
        have := c.isLt
        omega

/-- A ROW SCATTER'S TARGET: update element (r, c) lands on operand element (n, c') exactly when the index word of row r,
    read signed and not clamped, is n, and the column is the same. -/
theorem scatter_rows_resultIdx?_eq_some_iff {N C R w : ℕ} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (idx : IVec ⟨2, ![R, 1]⟩ w) (r : Fin R) (c : Fin C) (n : Fin N) (c' : Fin C) :
    d.resultIdx? (ix2 r c) idx = some (ix2 n c') ↔ (idx (ix2 r 0)).toInt = (n.val : ℤ) ∧ c = c' := by
  obtain ⟨uw, iw, sd, iv, wf⟩ := d
  simp only at h1 h2 h3 h4
  subst h1 h2 h3 h4
  exact scatter_rows_lit wf idx r c n c'

end Idealize.ShloMosaic.RowGatherScatter
-- ==== Proof.LibScatterAddAt.lean ====
/-
  AN ACCUMULATING SCATTER READ AT AN INDEX, at exact (extended-real) arithmetic, when it adds whole rows of a rank-2
  array (or single elements of a rank-1 array) at the places a column of start indices [R, 1] names.

  At exact arithmetic stablehlo.scatter with an add body gives, at each operand element, the operand's value plus the sum
  of the update elements that land there. Update element (r, c) of a row scatter lands on operand element (n, c') exactly
  when the index word of row r, read signed and not clamped, is n and c = c'; so the result at (n, c') is the operand at
  (n, c') plus the sum over the rows r whose index word reads n of the update at (r, c'). The same for a rank-1 operand:
  the result at n is the operand at n plus the sum over the r whose index word reads n of update r.
  A sum over a rank-1 index set is the sum over its coordinate (sum_idx1).
-/
import Idealize.ShloMosaic.PureOps.Ideal
import Idealize.ShloMosaic.PureOps.Contract
import Idealize.ShloMosaic.PureOps.Dims
import Idealize.ShloMosaic.Lib.ValueIdx
import proofs.«166703_j12472585028062_2_alg».proof.Proof.LibRowGatherScatter

noncomputable section

open scoped BigOperators

namespace Cert.LibScatterAddAt

open Idealize.ShloMosaic Idealize.ShloMosaic.ValueIdx Idealize.ShloMosaic.RowGatherScatter

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Rows -/

/-- A ROW SCATTER-ADD READ AT (n, c): the operand there plus the updates of the rows whose index word reads n. -/
theorem scatterAdd_rows_apply {N C R w : ℕ} {φ : FTy} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![R, 1]⟩ w) (upd : FVec Ideal ⟨2, ![R, C]⟩ φ) (n : Fin N) (c : Fin C) :
    Host.scatterAdd (F := Ideal) d x idx upd (ix2 n c)
      = x (ix2 n c) + ∑ r : Fin R, if (idx (ix2 r 0)).toInt = (n.val : ℤ) then upd (ix2 r c) else 0 := by
  show x (ix2 n c) + ∑ j ∈ Finset.univ.filter (fun j => d.resultIdx? j idx = some (ix2 n c)), upd j = _
  congr 1
  rw [Finset.sum_filter, sum_idx2]
  refine Finset.sum_congr rfl fun r _ => ?_
  simp only [scatter_rows_resultIdx?_eq_some_iff d h1 h2 h3 h4]
  by_cases hn : (idx (ix2 r 0)).toInt = (n.val : ℤ)
  · simp only [hn, true_and, if_true]
    rw [Finset.sum_ite_eq' Finset.univ c (fun b => upd (ix2 r b)), if_pos (Finset.mem_univ _)]
  · simp only [hn, false_and, if_false]
    exact Finset.sum_const_zero

/-! ## Elements -/

/-- The element scatter's dimension numbers, literal, over any proof of their conditions. -/
abbrev elemDims (N R : ℕ) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section ElemLit
variable {N R w : ℕ} (wf : ScatterDims.WF ⟨1, ![N]⟩ ⟨2, ![R, 1]⟩ ⟨1, ![R]⟩ [] [0] [0] 1)
  (idx : IVec ⟨2, ![R, 1]⟩ w) (r : Fin R)

/-- On the one axis the window starts at the index word of row r, read signed. -/
theorem elem_start0 : (elemDims N R wf).start (ix1 r) idx 0 = (idx (ix2 r 0)).toInt := by
  unfold ScatterDims.start
  rw [dif_pos (show (0 : Fin 1) ∈ (elemDims N R wf).scatterDimsToOperandDims from List.mem_singleton.mpr rfl)]
  have hsi : (elemDims N R wf).siIdx (ix1 r) ⟨List.idxOf (0 : Fin 1) (elemDims N R wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- The axis is inserted: window coordinate 0. -/
theorem elem_window0 : (elemDims N R wf).window (ix1 r) 0 = 0 := by
  unfold ScatterDims.window
  rw [dif_neg (show (0 : Fin 1) ∉ (elemDims N R wf).sKept by
    show (0 : Fin 1) ∉ (List.finRange 1).filter (fun a => decide (a ∉ [(0 : Fin 1)])); decide)]

end ElemLit

/-- The element scatter's target at the literal dimension numbers. -/
theorem scatter_elems_lit {N R w : ℕ} (wf : ScatterDims.WF ⟨1, ![N]⟩ ⟨2, ![R, 1]⟩ ⟨1, ![R]⟩ [] [0] [0] 1)
    (idx : IVec ⟨2, ![R, 1]⟩ w) (r : Fin R) (n : Fin N) :
    (elemDims N R wf).resultIdx? (ix1 r) idx = some (ix1 n) ↔ (idx (ix2 r 0)).toInt = (n.val : ℤ) := by
  have hs0 := elem_start0 wf idx r
  have hw0 := elem_window0 wf r
  unfold ScatterDims.resultIdx?
  split
  · rename_i h
    rw [Option.some.injEq]
    constructor
    · intro he
      have e0 := congrArg Fin.val (congrFun he 0)
      have b0 := (h 0).1
      simp only [hs0, hw0] at e0 b0
      change ((idx (ix2 r 0)).toInt + ((0 : ℕ) : ℤ)).toNat = n.val at e0
      omega
    · intro hn
      funext a
      refine Fin.ext ?_
      match a with
      | ⟨0, _⟩ =>
        show ((elemDims N R wf).start (ix1 r) idx 0 + ((elemDims N R wf).window (ix1 r) 0 : ℤ)).toNat = n.val
        rw [hs0, hw0, hn]; omega
  · rename_i h
    constructor
    · intro he; cases he
    · intro hn
      exfalso
      apply h
      intro a
      match a with
      | ⟨0, _⟩ =>
        show 0 ≤ (elemDims N R wf).start (ix1 r) idx 0 + ((elemDims N R wf).window (ix1 r) 0 : ℤ) ∧
          (elemDims N R wf).start (ix1 r) idx 0 + ((elemDims N R wf).window (ix1 r) 0 : ℤ) < (N : ℤ)
        rw [hs0, hw0, hn]
        have := n.isLt
        omega

/-- AN ELEMENT SCATTER'S TARGET: update r lands on operand element n exactly when the index word of row r, read signed
    and not clamped, is n. -/
theorem scatter_elems_resultIdx?_eq_some_iff {N R w : ℕ} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (idx : IVec ⟨2, ![R, 1]⟩ w) (r : Fin R) (n : Fin N) :
    d.resultIdx? (ix1 r) idx = some (ix1 n) ↔ (idx (ix2 r 0)).toInt = (n.val : ℤ) := by
  obtain ⟨uw, iw, sd, iv, wf⟩ := d
  simp only at h1 h2 h3 h4
  subst h1 h2 h3 h4
  exact scatter_elems_lit wf idx r n

/-- AN ELEMENT SCATTER-ADD READ AT n: the operand there plus the updates whose index word reads n. -/
theorem scatterAdd_elems_apply {N R w : ℕ} {φ : FTy} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![R, 1]⟩ w) (upd : FVec Ideal ⟨1, ![R]⟩ φ) (n : Fin N) :
    Host.scatterAdd (F := Ideal) d x idx upd (ix1 n)
      = x (ix1 n) + ∑ r : Fin R, if (idx (ix2 r 0)).toInt = (n.val : ℤ) then upd (ix1 r) else 0 := by
  show x (ix1 n) + ∑ j ∈ Finset.univ.filter (fun j => d.resultIdx? j idx = some (ix1 n)), upd j = _
  congr 1
  rw [Finset.sum_filter, sum_idx1]
  refine Finset.sum_congr rfl fun r _ => ?_
  simp only [scatter_elems_resultIdx?_eq_some_iff d h1 h2 h3 h4]

end Cert.LibScatterAddAt

end
-- ==== Proof.LibEReal.lean ====
/-
  General facts about extended reals, for programs read at exact (extended-real) arithmetic whose values are real numbers
  except for a −∞ a running maximum starts from.

  The operations on coerced reals are the coerced real operations: a finite sum (coe_sum), exp of a difference
  (exp_coe_sub), a quotient by a nonzero real (div_coe_coe), max (max_coe_coe). A maximum folded from −∞ over a nonempty
  finite family of reals is a real (fold_max_real), and max(−∞, c) = c (max_bot_coe). The rescaling factor of a first
  block, exp(−∞ − c), is 0 (exp_bot_sub). The f32 pattern 0xFF800000 is −∞ (ofBits_neg_inf).
-/
import Idealize.ShloMosaic.PureOps.Ideal
import Idealize.ShloMosaic.PureOps.Ideal.Laws

noncomputable section

open scoped BigOperators

namespace Cert.LibEReal

open Idealize.ShloMosaic

/-- A finite sum of coerced reals is the coerced sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- exp of a difference of reals. -/
theorem exp_coe_sub (a b : ℝ) : Ideal.exp ((a : EReal) - (b : EReal)) = ((Real.exp (a - b) : ℝ) : EReal) := by
  rw [← EReal.coe_sub]; rfl

/-- The first block's rescaling factor: exp(−∞ − c) = 0. -/
theorem exp_bot_sub (b : ℝ) : Ideal.exp ((⊥ : EReal) - (b : EReal)) = 0 := by
  rw [EReal.bot_sub]; rfl

/-- A quotient of reals by a nonzero real. -/
theorem div_coe_coe (a l : ℝ) (hl : l ≠ 0) : Ideal.div (a : EReal) (l : EReal) = ((a / l : ℝ) : EReal) := by
  rw [Ideal.div_coe hl, ← EReal.coe_mul]; congr 1; rw [mul_one_div]

/-- The f32 pattern of −∞ is the bottom element. -/
theorem ofBits_neg_inf : Ideal.ofBits .f32 0xFF800000#32 = (⊥ : EReal) := by simp [Ideal.ofBits, Ideal.ieee]

/-- A maximum folded from −∞ over a nonempty finite family of reals is a real. -/
theorem fold_max_real {ι : Type} [Fintype ι] [Nonempty ι] (f : ι → ℝ) :
    ∃ c : ℝ, (Finset.univ : Finset ι).fold max (⊥ : EReal) (fun k => ((f k : ℝ) : EReal)) = (c : EReal) := by
  have hlt : (Finset.univ : Finset ι).fold max (⊥ : EReal) (fun k => ((f k : ℝ) : EReal)) < ⊤ :=
    (Finset.fold_max_lt ⊤).mpr ⟨bot_lt_top, fun k _ => EReal.coe_lt_top _⟩
  have hgt : (⊥ : EReal) < (Finset.univ : Finset ι).fold max (⊥ : EReal) (fun k => ((f k : ℝ) : EReal)) :=
    (Finset.lt_fold_max ⊥).mpr (Or.inr ⟨Classical.arbitrary ι, Finset.mem_univ _, EReal.bot_lt_coe _⟩)
  exact ⟨_, (EReal.coe_toReal hlt.ne hgt.ne').symm⟩

/-- The running maximum after a block: from −∞ or from a real, against a real block maximum, it is a real. -/
theorem max_bot_coe (c : ℝ) : max (⊥ : EReal) (c : EReal) = (c : EReal) := max_bot_left _
theorem max_coe_coe (a b : ℝ) : max (a : EReal) (b : EReal) = ((max a b : ℝ) : EReal) := (EReal.coe_strictMono.monotone.map_max).symm

end Cert.LibEReal

end
-- ==== Proof.Spec.lean ====
/-
  THE ALGEBRA OF A NORMALISED GRAPH AGGREGATION, TWO ARRANGEMENTS.

  Fix one output column. h n is the transformed feature of node n, dinv n = deg(n)^(-1/2) a NONNEGATIVE REAL. An edge e
  carries a source node src e and a destination word col e; it contributes to destination c exactly when the word, read
  as a signed integer, is c.

  Arrangement one scales each node's feature once, hs n = h n · dinv n, adds up the scaled sources of the edges into c, adds
  the node's own scaled feature (its self-loop), and scales the total by dinv c:
        dinv c · ( (0 + Σ_{e → c} h(src e) · dinv(src e)) + h c · dinv c ) + b.
  Arrangement two lists the self-loops as N further edges i → i behind the E given ones, weights every listed edge by
  dinv(src) · dinv(dst), and adds the weighted sources:
        (0 + Σ_{e' → c} h(src' e') · (dinv(src' e') · dinv(dst' e'))) + b.
  They agree for EVERY extended-real h: the only law used beyond commutativity and associativity is
  x · (y + z) = x · y + x · z for a nonnegative real x, which holds on the extended reals whatever y and z are.
  The degree itself, 1 per edge into c, is counted as (edges into c) + 1 in arrangement one and over the longer list in
  arrangement two: the same number.
-/
import Mathlib.Data.EReal.Inv
import Mathlib.Algebra.BigOperators.Fin
import Mathlib.Algebra.BigOperators.Group.Finset.Basic

noncomputable section

open scoped BigOperators

namespace Cert.Gcn

/-- An extended real that is a nonnegative real number. -/
def NonnegReal (x : EReal) : Prop := ∃ r : ℝ, 0 ≤ r ∧ x = (r : EReal)

theorem NonnegReal.nonneg {x : EReal} (h : NonnegReal x) : 0 ≤ x := by
  obtain ⟨r, hr, rfl⟩ := h; exact_mod_cast hr

theorem NonnegReal.ne_top {x : EReal} (h : NonnegReal x) : x ≠ ⊤ := by
  obtain ⟨r, -, rfl⟩ := h; exact EReal.coe_ne_top r

theorem NonnegReal.zero : NonnegReal 0 := ⟨0, le_refl _, EReal.coe_zero.symm⟩

/-- A nonnegative real factor goes inside a finite sum of arbitrary extended reals. -/
theorem mul_sum_of_nonnegReal {ι : Type} (S : Finset ι) (x : EReal) (hx : NonnegReal x) (f : ι → EReal) :
    x * ∑ i ∈ S, f i = ∑ i ∈ S, x * f i := by
  classical
  induction S using Finset.induction_on with
  | empty => simp
  | insert a s ha ih =>
    rw [Finset.sum_insert ha, Finset.sum_insert ha, EReal.left_distrib_of_nonneg_of_ne_top hx.nonneg hx.ne_top, ih]

variable {N E E' : ℕ}

/-- THE TWO ARRANGEMENTS AGREE. The longer list is the E edges followed by the N self-loops i → i (its entry at position
    e < E is edge e; at position E + i it has source i, destination i and destination word reading i); dst' of an edge
    whose word reads c is c. -/
theorem out_eq (h dinv : Fin N → EReal) (hd : ∀ n, NonnegReal (dinv n)) (z b : EReal) (hz : z = 0)
    (src : Fin E → Fin N) (col : Fin E → BitVec 32)
    (hE : E + N = E') (src' dst' : Fin E' → Fin N) (col' : Fin E' → BitVec 32)
    (hsrcL : ∀ (e' : Fin E') (e : Fin E), e'.val = e.val → src' e' = src e)
    (hcolL : ∀ (e' : Fin E') (e : Fin E), e'.val = e.val → col' e' = col e)
    (hdstL : ∀ (e' : Fin E') (e : Fin E) (c : Fin N), e'.val = e.val → (col e).toInt = (c.val : ℤ) → dst' e' = c)
    (hsrcR : ∀ (e' : Fin E') (i : Fin N), e'.val = E + i.val → src' e' = i)
    (hdstR : ∀ (e' : Fin E') (i : Fin N), e'.val = E + i.val → dst' e' = i)
    (hcolR : ∀ (e' : Fin E') (i : Fin N), e'.val = E + i.val → (col' e').toInt = (i.val : ℤ))
    (c : Fin N) :
    dinv c * ((z + ∑ e : Fin E, if (col e).toInt = (c.val : ℤ) then h (src e) * dinv (src e) else 0) + h c * dinv c) + b
      = (z + ∑ e' : Fin E', if (col' e').toInt = (c.val : ℤ) then h (src' e') * (dinv (src' e') * dinv (dst' e')) else 0) + b := by
  subst hE hz
  rw [Fin.sum_univ_add]
  have hL : ∀ e : Fin E,
      (if (col' (Fin.castAdd N e)).toInt = (c.val : ℤ)
        then h (src' (Fin.castAdd N e)) * (dinv (src' (Fin.castAdd N e)) * dinv (dst' (Fin.castAdd N e))) else 0)
      = dinv c * (if (col e).toInt = (c.val : ℤ) then h (src e) * dinv (src e) else 0) := by
    intro e
    rw [hcolL (Fin.castAdd N e) e rfl, hsrcL (Fin.castAdd N e) e rfl]
    by_cases hp : (col e).toInt = (c.val : ℤ)
    · rw [if_pos hp, if_pos hp, hdstL (Fin.castAdd N e) e c rfl hp, mul_comm (dinv c), mul_assoc]
    · rw [if_neg hp, if_neg hp, mul_zero]
  have hR : ∀ i : Fin N,
      (if (col' (Fin.natAdd E i)).toInt = (c.val : ℤ)
        then h (src' (Fin.natAdd E i)) * (dinv (src' (Fin.natAdd E i)) * dinv (dst' (Fin.natAdd E i))) else 0)
      = if i = c then h c * (dinv c * dinv c) else 0 := by
    intro i
    rw [hcolR (Fin.natAdd E i) i rfl, hsrcR (Fin.natAdd E i) i rfl, hdstR (Fin.natAdd E i) i rfl]
    by_cases hic : i = c
    · subst hic; rw [if_pos rfl, if_pos rfl]
    · rw [if_neg hic, if_neg (fun hv => hic (Fin.ext (by exact_mod_cast hv)))]
  rw [Finset.sum_congr rfl (fun e _ => hL e), Finset.sum_congr rfl (fun i _ => hR i),
    Finset.sum_ite_eq' Finset.univ c, if_pos (Finset.mem_univ _), ← mul_sum_of_nonnegReal _ _ (hd c), zero_add, zero_add,
    EReal.left_distrib_of_nonneg_of_ne_top (hd c).nonneg (hd c).ne_top, mul_comm (dinv c) (h c * dinv c), mul_assoc]

/-- THE DEGREE, COUNTED TWO WAYS: one per edge into c plus one, or one per entry of the longer list into c. -/
theorem deg_eq (z one : EReal) (col : Fin E → BitVec 32) (hE : E + N = E') (col' : Fin E' → BitVec 32)
    (hcolL : ∀ (e' : Fin E') (e : Fin E), e'.val = e.val → col' e' = col e)
    (hcolR : ∀ (e' : Fin E') (i : Fin N), e'.val = E + i.val → (col' e').toInt = (i.val : ℤ))
    (c : Fin N) :
    (z + ∑ e : Fin E, if (col e).toInt = (c.val : ℤ) then one else 0) + one
      = z + ∑ e' : Fin E', if (col' e').toInt = (c.val : ℤ) then one else 0 := by
  subst hE
  rw [Fin.sum_univ_add]
  have hL : ∀ e : Fin E, (if (col' (Fin.castAdd N e)).toInt = (c.val : ℤ) then one else 0)
      = if (col e).toInt = (c.val : ℤ) then one else 0 := fun e => by rw [hcolL (Fin.castAdd N e) e rfl]
  have hR : ∀ i : Fin N, (if (col' (Fin.natAdd E i)).toInt = (c.val : ℤ) then one else 0) = if i = c then one else 0 := by
    intro i
    rw [hcolR (Fin.natAdd E i) i rfl]
    by_cases hic : i = c
    · subst hic; rw [if_pos rfl, if_pos rfl]
    · rw [if_neg hic, if_neg (fun hv => hic (Fin.ext (by exact_mod_cast hv)))]
  rw [Finset.sum_congr rfl (fun e _ => hL e), Finset.sum_congr rfl (fun i _ => hR i),
    Finset.sum_ite_eq' Finset.univ c, if_pos (Finset.mem_univ _), add_assoc]

end Cert.Gcn

end
-- ==== Proof.NodeFacts.lean ====
/-
  NODE WORDS AND THE INVERSE SQUARE-ROOT DEGREE.

  A node is named by a 32-bit word. As a gather index the word is first wrapped (a negative word counts from the end: 100000
  is added), then read signed and clamped into [0, 99999]: nodeOf. A word that reads as a node number n < 100000 names n:
  it is not negative, so the wrap leaves it alone, and the clamp does nothing. The word the iota gives node i reads i.

  dinv, as both programs compute it from a degree d: rsqrt(max(d, 1e-12)) where d > 0, else 0. Whatever extended real d is,
  this is a NONNEGATIVE REAL: max(d, 1e-12) is a positive real or +∞, whose reciprocal square root is a positive real or 0.
-/
import Idealize.ShloMosaic.PureOps.Ideal
import Idealize.ShloMosaic.Lib.ValueIdx
import proofs.«166703_j12472585028062_2_alg».proof.Proof.LibRowGatherScatter
import proofs.«166703_j12472585028062_2_alg».proof.Proof.LibEReal
import proofs.«166703_j12472585028062_2_alg».proof.Proof.Spec

noncomputable section

namespace Cert.Gcn

open Idealize.ShloMosaic Idealize.ShloMosaic.ValueIdx Idealize.ShloMosaic.RowGatherScatter

/-! ## Node words -/

/-- A node word made a gather index: a negative word counts from the end. -/
def wrapW (w : BitVec 32) : BitVec 32 := Scalar.select (IntOp.cmpi .slt w 0#32) (IntOp.addi w 100000#32) w

/-- The node a word selects in a gather: wrapped, read signed, clamped into [0, 99999]. -/
def nodeOf (w : BitVec 32) : Fin 100000 := ⟨min (wrapW w).toInt.toNat (100000 - 1), by omega⟩

/-- A word that is not negative is left alone by the wrap. -/
theorem wrapW_of_nonneg (w : BitVec 32) (h : 0 ≤ w.toInt) : wrapW w = w := by
  have hs : w.slt 0#32 = false := by
    rw [Bool.eq_false_iff]
    intro hs
    rw [BitVec.slt_iff_toInt_lt] at hs
    have h0 : (0#32 : BitVec 32).toInt = 0 := by decide
    omega
  unfold wrapW IntOp.cmpi Scalar.select
  simp only [hs]
  rfl

/-- A word that reads as the node number n names n. -/
theorem nodeOf_of_toInt (w : BitVec 32) (n : Fin 100000) (h : w.toInt = (n.val : ℤ)) : nodeOf w = n := by
  refine Fin.ext ?_
  show min (wrapW w).toInt.toNat (100000 - 1) = n.val
  rw [wrapW_of_nonneg w (by omega), h, Int.toNat_natCast]
  have := n.isLt
  omega

/-- The word the iota gives node i reads i. -/
theorem toInt_ofNat_node (i : Fin 100000) : (BitVec.ofNat 32 i.val).toInt = (i.val : ℤ) := by
  have hi := i.isLt
  have h1 : i.val % 2 ^ 32 = i.val := Nat.mod_eq_of_lt (by omega)
  rw [BitVec.toInt_eq_toNat_cond, BitVec.toNat_ofNat, h1, if_pos (by omega)]

/-- A gather whose start index for row r is the wrapped word w selects node nodeOf w. -/
theorem rowOf_eq_nodeOf {R : ℕ} (idx : IVec ⟨2, ![R, 1]⟩ 32) (r : Fin R) (w : BitVec 32) (h : idx (ix2 r 0) = wrapW w) :
    rowOf (N := 100000) (by decide) idx r = nodeOf w := by
  refine Fin.ext ?_
  show min (idx (ix2 r 0)).toInt.toNat (100000 - 1) = min (wrapW w).toInt.toNat (100000 - 1)
  rw [h]

/-! ## dinv -/

/-- The f32 pattern 0x00000000 is the real 0. -/
theorem zeroF : Ideal.ofBits .f32 0x00000000#32 = 0 := Ideal.ofBits_zero_f32

/-- The pattern 0x2B8CBCCC (sign 0, exponent 87, significand 2^23 + 834764) denotes the positive real 9223372 · 2^(−63). -/
theorem ofBits_eps : ∃ e : ℝ, 0 < e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

/-- dinv from a degree: rsqrt(max(d, 1e-12)) where d > 0, else 0. -/
def dinvOf (d : EReal) : EReal :=
  Scalar.select (FloatOps.cmpf (F := Ideal) (φ := .f32) .ogt d (FloatOps.ofBits (F := Ideal) .f32 0x00000000#32))
    (FloatOps.hostUnary (F := Ideal) (φ := .f32) .rsqrt (FloatOps.maximumf (F := Ideal) (φ := .f32) d (FloatOps.ofBits (F := Ideal) .f32 0x2B8CBCCC#32)))
    (FloatOps.ofBits (F := Ideal) .f32 0x00000000#32)

/-- The reciprocal square root of max(d, e), e a positive real, is a nonnegative real, whatever d is. -/
theorem rsqrt_max_nonnegReal (d : EReal) {e : ℝ} (he : 0 < e) : NonnegReal (Ideal.rsqrt (max d (e : EReal))) := by
  have pos : ∀ r : ℝ, 0 < r → NonnegReal (Ideal.rsqrt (r : EReal)) := fun r hr => by
    refine ⟨(Real.sqrt r)⁻¹, inv_nonneg.mpr (Real.sqrt_nonneg r), ?_⟩
    show (if r < 0 then (⊥ : EReal) else if r = 0 then ⊤ else (((Real.sqrt r)⁻¹ : ℝ) : EReal)) = _
    rw [if_neg (not_lt.mpr hr.le), if_neg hr.ne']
  induction d using EReal.rec with
  | bot => rw [max_bot_left]; exact pos e he
  | coe r => rw [Cert.LibEReal.max_coe_coe]; exact pos _ (lt_of_lt_of_le he (le_max_right r e))
  | top => rw [max_top_left]; exact NonnegReal.zero

/-- dinv is a nonnegative real, whatever the degree. -/
theorem dinvOf_nonnegReal (d : EReal) : NonnegReal (dinvOf d) := by
  obtain ⟨e, he, hE⟩ := ofBits_eps
  unfold dinvOf Scalar.select
  split
  · show NonnegReal (Ideal.rsqrt (max d (Ideal.ofBits .f32 0x2B8CBCCC#32)))
    rw [hE]
    exact rsqrt_max_nonnegReal d he
  · show NonnegReal (Ideal.ofBits .f32 0x00000000#32)
    rw [zeroF]
    exact NonnegReal.zero

end Cert.Gcn

end
-- ==== Proof.KAt.lean ====
/-
  THE KERNEL PROGRAM'S RESULT READ AT AN INDEX.

  Word e of the source (destination) list is word e of row 0 (row 1) of the edge array. The degree at n is
  (0 + Σ over edges whose destination word reads n of 1) + 1, dinv(n) = dinvOf(degree n), and the region's output at (n, j)
  is hK(n, j) · dinv(n) with hK(n, j) = Σ_k (x(n,k) · keep(n,k)) · W(k,j). So the result at (c, j) is
      dinv(c) · ( (0 + Σ over edges e whose destination word reads c of hK(kSrc e, j) · dinv(kSrc e)) + hK(c, j) · dinv(c) ) + b(j).
-/
import proofs.«166703_j12472585028062_2_alg».proof.Proof.KRun
import proofs.«166703_j12472585028062_2_alg».proof.Proof.LibScatterAddAt
import proofs.«166703_j12472585028062_2_alg».proof.Proof.NodeFacts

noncomputable section

open scoped BigOperators

namespace Cert.KernelIdeal.KValue

open Cert.KernelIdeal Cert.KernelIdeal.Gen Idealize.ShloMosaic Idealize.ShloMosaic.ValueIdx
open Idealize.ShloMosaic.RowGatherScatter Cert.LibLayoutAt Cert.LibScatterAddAt Cert.Gcn

theorem kRow_apply (x1 : IVec S2x400000 32) (e : Fin 400000) : kRow x1 (ix1 e) = x1 (ix2 (0 : Fin 2) e) := by
  unfold kRow
  exact row_of_pair_apply (0 : Fin 2) x1 slices_S2x400000_S1x400000_0_0 shapeCasts_S1x400000_S400000 e

theorem kCol_apply (x1 : IVec S2x400000 32) (e : Fin 400000) : kCol x1 (ix1 e) = x1 (ix2 (1 : Fin 2) e) := by
  unfold kCol
  exact row_of_pair_apply (1 : Fin 2) x1 slices_S2x400000_S1x400000_1_0 shapeCasts_S1x400000_S400000 e

/-- A word list made a column reads, at row r, word r. -/
theorem asCol_apply (v : IVec S400000 32) (r : Fin 400000) : asCol v (ix2 r (0 : Fin 1)) = v (ix1 r) :=
  bcast_a_a1_apply _ bcast_S400000_S400000x1_0 r 0

/-- The gather column at row r is the wrap of word r. -/
theorem kWrap_apply (v : IVec S400000 32) (r : Fin 400000) : kWrap v (ix2 r (0 : Fin 1)) = wrapW (v (ix1 r)) := by
  unfold kWrap
  exact (bcast_a_a1_apply _ bcast_S400000_S400000x1_0 r 0).trans rfl

/-- The node edge e takes its feature from. -/
def kSrc (x1 : IVec S2x400000 32) (e : Fin 400000) : Fin 100000 := nodeOf (kRow x1 (ix1 e))

/-- The degree at a node, from ANY destination list: (0 plus one per edge whose word reads the node) plus one. -/
theorem deg_apply_gen (col : IVec S400000 32) (n : Fin 100000) :
    addf (Host.scatterAdd (F := Ideal) scatter_S100000_S400000x1_S400000_n_0_0_1 (splat S100000 bcast_S_S100000 0x00000000#32)
        (asCol col) (splat S400000 bcast_S_S400000 0x3F800000#32)) (splat S100000 bcast_S_S100000 0x3F800000#32) (ix1 n)
      = (Ideal.ofBits .f32 0x00000000#32
          + ∑ e : Fin 400000, if (col (ix1 e)).toInt = (n.val : ℤ) then Ideal.ofBits .f32 0x3F800000#32 else 0)
        + Ideal.ofBits .f32 0x3F800000#32 := by
  refine (addf_apply _ _ _).trans ?_
  rw [scatterAdd_elems_apply _ rfl rfl rfl rfl]
  refine congrArg (fun s : EReal => (Ideal.ofBits .f32 0x00000000#32 + s) + Ideal.ofBits .f32 0x3F800000#32)
    (Finset.sum_congr rfl fun r _ => ?_)
  rw [asCol_apply] <;> rfl

theorem kDeg_apply (x1 : IVec S2x400000 32) (n : Fin 100000) :
    kDeg x1 (ix1 n) = (Ideal.ofBits .f32 0x00000000#32
        + ∑ e : Fin 400000, if (kCol x1 (ix1 e)).toInt = (n.val : ℤ) then Ideal.ofBits .f32 0x3F800000#32 else 0)
      + Ideal.ofBits .f32 0x3F800000#32 :=
  deg_apply_gen (kCol x1) n

/-- dinv at a node, from ANY degree vector: dinvOf of the degree there. -/
theorem dinv_apply_gen (d : FVec Ideal S100000 .f32) (n : Fin 100000) :
    select (cmpf .ogt d (splat S100000 bcast_S_S100000 0x00000000#32))
      (Host.rsqrt (F := Ideal) (maximumf d (splat S100000 bcast_S_S100000 0x2B8CBCCC#32)))
      (broadcastInDim S100000 ![] bcast_S_S100000 (id (constant (F := Ideal) S_ .f32 0x00000000#32))) (ix1 n)
      = dinvOf (d (ix1 n)) := rfl

theorem kDinv_apply (x1 : IVec S2x400000 32) (n : Fin 100000) : kDinv x1 (ix1 n) = dinvOf (kDeg x1 (ix1 n)) :=
  dinv_apply_gen (kDeg x1) n

/-- The transformed feature of node n, column j (without the dinv factor). -/
def hK (x0 x4 : FVec Ideal S100000x512 .f32) (x2 : FVec Ideal S512x512 .f32) (n : Fin 100000) (j : Fin 512) : EReal :=
  ∑ k : Fin 512, (x0 (ix2 n k) * keepK (x4 (ix2 n k))) * x2 (ix2 k j)

/-- The region's output at (n, j), from ANY dinv vector: the transformed feature times dinv(n). -/
theorem hsAt_gen (x0 x4 : FVec Ideal S100000x512 .f32) (x2 : FVec Ideal S512x512 .f32) (D : FVec Ideal S100000 .f32)
    (n : Fin 100000) (j : Fin 512) :
    kHsAt x0 x4 (kW x2) (shapeCast S100000x1 D shapeCasts_S100000_S100000x1) n j = hK x0 x4 x2 n j * D (ix1 n) := by
  unfold kHsAt hK
  rw [shapeCast_a_a1_apply]
  rfl

theorem kHsAt_eq (x0 x4 : FVec Ideal S100000x512 .f32) (x1 : IVec S2x400000 32) (x2 : FVec Ideal S512x512 .f32)
    (n : Fin 100000) (j : Fin 512) :
    kHsAt x0 x4 (kW x2) (kDinv2 x1) n j = hK x0 x4 x2 n j * kDinv x1 (ix1 n) :=
  hsAt_gen x0 x4 x2 (kDinv x1) n j

/-- THE HOST TAIL AT (c, j): dinv(c) times (the rows hs(source) of the edges into c added up, plus hs(c)), plus the bias. -/
theorem kTail_apply (hs : FVec Ideal S100000x512 .f32) (row col : IVec S400000 32) (d2 : FVec Ideal S100000x1 .f32)
    (x3 : FVec Ideal S512 .f32) (c : Fin 100000) (j : Fin 512) :
    kTail hs row col d2 x3 (ix2 c j)
      = d2 (ix2 c (0 : Fin 1)) * ((Ideal.ofBits .f32 0x00000000#32 + ∑ r : Fin 400000, if (col (ix1 r)).toInt = (c.val : ℤ)
            then hs (ix2 (nodeOf (row (ix1 r))) j) else 0) + hs (ix2 c j)) + x3 (ix1 j) := by
  have e1 : broadcastInDim S100000x512 ![0, 1] bcast_S100000x1_S100000x512_0_1 d2 (ix2 c j) = d2 (ix2 c (0 : Fin 1)) :=
    bcast_a1_ab_apply _ _ c j
  have e2 : broadcastInDim S100000x512 ![0, 1] bcast_S1x512_S100000x512_0_1 (broadcastInDim S1x512 ![1] bcast_S512_S1x512_1 x3) (ix2 c j)
      = x3 (ix1 j) := by
    rw [bcast_1b_ab_apply, bcast_a_1a_apply]
  have e3 : Host.scatterAdd (F := Ideal) scatter_S100000x512_S400000x1_S400000x512_1_0_0_1
        (splat S100000x512 bcast_S_S100000x512 0x00000000#32) (asCol col)
        (Host.gather gather_S100000x512_S400000x1_S400000x512_1_0_n_n_0_1_1512 hs (kWrap row)) (ix2 c j)
      = Ideal.ofBits .f32 0x00000000#32 + ∑ r : Fin 400000, if (col (ix1 r)).toInt = (c.val : ℤ)
          then hs (ix2 (nodeOf (row (ix1 r))) j) else 0 := by
    rw [scatterAdd_rows_apply _ rfl rfl rfl rfl]
    refine congrArg (fun s : EReal => Ideal.ofBits .f32 0x00000000#32 + s) (Finset.sum_congr rfl fun r _ => ?_)
    rw [asCol_apply, gather_rows_apply (by decide) _ rfl rfl rfl rfl rfl rfl rfl, rowOf_eq_nodeOf _ r _ (kWrap_apply _ r)]
  unfold kTail
  rw [addf_apply, mulf_apply, addf_apply, e1, e2, e3]

set_option maxHeartbeats 1000000 in
theorem kOut_apply (x0 : FVec Ideal S100000x512 .f32) (x1 : IVec S2x400000 32) (x2 : FVec Ideal S512x512 .f32)
    (x3 : FVec Ideal S512 .f32) (x4 : FVec Ideal S100000x512 .f32) (c : Fin 100000) (j : Fin 512) :
    kOut x0 x1 x2 x3 x4 (ix2 c j)
      = kDinv x1 (ix1 c) * ((Ideal.ofBits .f32 0x00000000#32 + ∑ e : Fin 400000, if (kCol x1 (ix1 e)).toInt = (c.val : ℤ)
            then hK x0 x4 x2 (kSrc x1 e) j * kDinv x1 (ix1 (kSrc x1 e)) else 0) + hK x0 x4 x2 c j * kDinv x1 (ix1 c))
        + x3 (ix1 j) := by
  have hd2 : kDinv2 x1 (ix2 c (0 : Fin 1)) = kDinv x1 (ix1 c) := by
    unfold kDinv2
    exact shapeCast_a_a1_apply _ _ c 0
  have hself : kHs x0 x4 (kW x2) (kDinv2 x1) (ix2 c j) = hK x0 x4 x2 c j * kDinv x1 (ix1 c) := kHsAt_eq x0 x4 x1 x2 c j
  unfold kOut
  rw [kTail_apply, hd2, hself]
  refine congrArg (fun s : EReal => kDinv x1 (ix1 c) * ((Ideal.ofBits .f32 0x00000000#32 + s) + hK x0 x4 x2 c j * kDinv x1 (ix1 c))
    + x3 (ix1 j)) (Finset.sum_congr rfl fun r _ => ?_)
  rw [show kHs x0 x4 (kW x2) (kDinv2 x1) (ix2 (nodeOf (kRow x1 (ix1 r))) j) = hK x0 x4 x2 (kSrc x1 r) j * kDinv x1 (ix1 (kSrc x1 r))
    from kHsAt_eq x0 x4 x1 x2 (kSrc x1 r) j]

end Cert.KernelIdeal.KValue

end
-- ==== Proof.RefRun.lean ====
/-
  THE REFERENCE'S RUN, at exact (extended-real) arithmetic.

  The reference program computes, from node features x [100000, 512], an edge list [2, 400000], a weight W [512, 512], a
  bias b [512] and a uniform mask [100000, 512]:
    keep  = (mask ≥ 0.1) / 0.9                        the dropout scale, 1/0.9 where kept, 0 where dropped
    h     = (x · keep) W                               the transformed features
    row', col' = the edges' sources / destinations followed by 0, 1, …, 99999 (one self-loop per node)
    deg   = number of entries of col' naming the node, dinv = deg^(-1/2) where deg > 0, else 0
    out   = Σ over the listed edges into a node of h(source) · (dinv(source) · dinv(destination)), plus b.
  Here @main's 71 host operations are listed in order, each result named as a function of the argument arrays (rKeep … rOut),
  and run: every weakly fair execution terminates with the result buffer at rOut of the arguments and the arguments unchanged.
-/
import proofs.«166703_j12472585028062_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 71 operations, in order (the operations of the called select-or-zero function stand in its call's place). -/
abbrev ops : List (HloOp τ sig (Elt F)) :=
  [
    nullary main_cst (constant S_ .f32 0x3DCCCCCD#32),
    unary main_cst main_v0 (broadcastInDim S100000x512 ![] bcast_S_S100000x512 : (⟨S_, .f32⟩ : BufTy).Contents (Elt F) → (⟨S100000x512, .f32⟩ : BufTy).Contents (Elt F)),
    binary main_arg4 main_v0 main_v1 (cmpf .oge : (⟨S100000x512, .f32⟩ : BufTy).Contents (Elt F) → (⟨S100000x512, .f32⟩ : BufTy).Contents (Elt F) → (⟨S100000x512, .i1⟩ : BufTy).Contents (Elt F)),
    unary main_v1 main_v2 (uitofp .f32 : (⟨S100000x512, .i1⟩ : BufTy).Contents (Elt F) → (⟨S100000x512, .f32⟩ : BufTy).Contents (Elt F)),
    nullary main_cst_0 (constant S_ .f32 0x3F666666#32),
    unary main_cst_0 main_v3 (broadcastInDim S100000x512 ![] bcast_S_S100000x512 : (⟨S_, .f32⟩ : BufTy).Contents (Elt F) → (⟨S100000x512, .f32⟩ : BufTy).Contents (Elt F)),
    binary main_v2 main_v3 main_v4 (Host.divf : (⟨S100000x512, .f32⟩ : BufTy).Contents (Elt F) → (⟨S100000x512, .f32⟩ : BufTy).Contents (Elt F) → (⟨S100000x512, .f32⟩ : BufTy).Contents (Elt F)),
    binary main_arg0 main_v4 main_v5 (mulf : (⟨S100000x512, .f32⟩ : BufTy).Contents (Elt F) → (⟨S100000x512, .f32⟩ : BufTy).Contents (Elt F) → (⟨S100000x512, .f32⟩ : BufTy).Contents (Elt F)),
    binary main_v5 main_arg2 main_v6 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    nullary main_v7 (iotaInDim S100000 32 0),
    unary main_arg1 main_v8 ((extractStridedSlice S1x400000 ![0, 0] · slices_S2x400000_S1x400000_0_0) : (⟨S2x400000, .i32⟩ : BufTy).Contents (Elt F) → (⟨S1x400000, .i32⟩ : BufTy).Contents (Elt F)),
    reshape main_v8 main_v9 rfl shapeCasts_S1x400000_S400000,
    binary main_v9 main_v7 main_v10 ((fun a b => concatenate S500000 0 [⟨S400000, a⟩, ⟨S100000, b⟩] concatenates_S400000_S100000_S500000_d0) : (⟨S400000, .i32⟩ : BufTy).Contents (Elt F) → (⟨S100000, .i32⟩ : BufTy).Contents (Elt F) → (⟨S500000, .i32⟩ : BufTy).Contents (Elt F)),
    unary main_arg1 main_v11 ((extractStridedSlice S1x400000 ![1, 0] · slices_S2x400000_S1x400000_1_0) : (⟨S2x400000, .i32⟩ : BufTy).Contents (Elt F) → (⟨S1x400000, .i32⟩ : BufTy).Contents (Elt F)),
    reshape main_v11 main_v12 rfl shapeCasts_S1x400000_S400000,
    binary main_v12 main_v7 main_v13 ((fun a b => concatenate S500000 0 [⟨S400000, a⟩, ⟨S100000, b⟩] concatenates_S400000_S100000_S500000_d0) : (⟨S400000, .i32⟩ : BufTy).Contents (Elt F) → (⟨S100000, .i32⟩ : BufTy).Contents (Elt F) → (⟨S500000, .i32⟩ : BufTy).Contents (Elt F)),
    nullary main_cst_1 (constant S_ .f32 0x3F800000#32),
    unary main_cst_1 main_v14 (broadcastInDim S500000 ![] bcast_S_S500000 : (⟨S_, .f32⟩ : BufTy).Contents (Elt F) → (⟨S500000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v13 main_v16 (broadcastInDim S500000x1 ![0] bcast_S500000_S500000x1_0 : (⟨S500000, .i32⟩ : BufTy).Contents (Elt F) → (⟨S500000x1, .i32⟩ : BufTy).Contents (Elt F)),
    ternary main_v15 main_v16 main_v14 main_v17 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_3 (constant S_ .f32 0x00000000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (cmpf .ogt : (⟨S100000, .f32⟩ : BufTy).Contents (Elt F) → (⟨S100000, .f32⟩ : BufTy).Contents (Elt F) → (⟨S100000, .i1⟩ : BufTy).Contents (Elt F)),
    nullary main_cst_4 (constant S_ .f32 0x2B8CBCCC#32),
    unary main_cst_4 main_v20 (broadcastInDim S100000 ![] bcast_S_S100000 : (⟨S_, .f32⟩ : BufTy).Contents (Elt F) → (⟨S100000, .f32⟩ : BufTy).Contents (Elt F)),
    binary main_v17 main_v20 main_v21 (maximumf : (⟨S100000, .f32⟩ : BufTy).Contents (Elt F) → (⟨S100000, .f32⟩ : BufTy).Contents (Elt F) → (⟨S100000, .f32⟩ : BufTy).Contents (Elt F)),
    unary main_v21 main_v22 (Host.rsqrt : (⟨S100000, .f32⟩ : BufTy).Contents (Elt F) → (⟨S100000, .f32⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v19) (TRef.of (T := ⟨S100000, .f32⟩) main_v22) (TRef.of (T := ⟨S100000, .f32⟩) main_call0_v1) (TRef.of (T := ⟨S100000, .f32⟩) main_v23) select,
    nullary main_c (constantI S_ 32 0#32),
    unary main_c main_v24 (broadcastInDim S500000 ![] bcast_S_S500000 : (⟨S_, .i32⟩ : BufTy).Contents (Elt F) → (⟨S500000, .i32⟩ : BufTy).Contents (Elt F)),
    binary main_v10 main_v24 main_v25 (cmpi .slt : (⟨S500000, .i32⟩ : BufTy).Contents (Elt F) → (⟨S500000, .i32⟩ : BufTy).Contents (Elt F) → (⟨S500000, .i1⟩ : BufTy).Contents (Elt F)),
    nullary main_c_6 (constantI S_ 32 100000#32),
    unary main_c_6 main_v26 (broadcastInDim S500000 ![] bcast_S_S500000 : (⟨S_, .i32⟩ : BufTy).Contents (Elt F) → (⟨S500000, .i32⟩ : BufTy).Contents (Elt F)),
    binary main_v10 main_v26 main_v27 (addi : (⟨S500000, .i32⟩ : BufTy).Contents (Elt F) → (⟨S500000, .i32⟩ : BufTy).Contents (Elt F) → (⟨S500000, .i32⟩ : BufTy).Contents (Elt F)),
    ternary main_v25 main_v27 main_v10 main_v28 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v28 main_v29 (broadcastInDim S500000x1 ![0] bcast_S500000_S500000x1_0 : (⟨S500000, .i32⟩ : BufTy).Contents (Elt F) → (⟨S500000x1, .i32⟩ : BufTy).Contents (Elt F)),
    binary main_v23 main_v29 main_v30 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    nullary main_c_7 (constantI S_ 32 0#32),
    unary main_c_7 main_v31 (broadcastInDim S500000 ![] bcast_S_S500000 : (⟨S_, .i32⟩ : BufTy).Contents (Elt F) → (⟨S500000, .i32⟩ : BufTy).Contents (Elt F)),
    binary main_v13 main_v31 main_v32 (cmpi .slt : (⟨S500000, .i32⟩ : BufTy).Contents (Elt F) → (⟨S500000, .i32⟩ : BufTy).Contents (Elt F) → (⟨S500000, .i1⟩ : BufTy).Contents (Elt F)),
    nullary main_c_8 (constantI S_ 32 100000#32),
    unary main_c_8 main_v33 (broadcastInDim S500000 ![] bcast_S_S500000 : (⟨S_, .i32⟩ : BufTy).Contents (Elt F) → (⟨S500000, .i32⟩ : BufTy).Contents (Elt F)),
    binary main_v13 main_v33 main_v34 (addi : (⟨S500000, .i32⟩ : BufTy).Contents (Elt F) → (⟨S500000, .i32⟩ : BufTy).Contents (Elt F) → (⟨S500000, .i32⟩ : BufTy).Contents (Elt F)),
    ternary main_v32 main_v34 main_v13 main_v35 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v35 main_v36 (broadcastInDim S500000x1 ![0] bcast_S500000_S500000x1_0 : (⟨S500000, .i32⟩ : BufTy).Contents (Elt F) → (⟨S500000x1, .i32⟩ : BufTy).Contents (Elt F)),
    binary main_v23 main_v36 main_v37 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    binary main_v30 main_v37 main_v38 (mulf : (⟨S500000, .f32⟩ : BufTy).Contents (Elt F) → (⟨S500000, .f32⟩ : BufTy).Contents (Elt F) → (⟨S500000, .f32⟩ : BufTy).Contents (Elt F)),
    nullary main_c_9 (constantI S_ 32 0#32),
    unary main_c_9 main_v39 (broadcastInDim S500000 ![] bcast_S_S500000 : (⟨S_, .i32⟩ : BufTy).Contents (Elt F) → (⟨S500000, .i32⟩ : BufTy).Contents (Elt F)),
    binary main_v10 main_v39 main_v40 (cmpi .slt : (⟨S500000, .i32⟩ : BufTy).Contents (Elt F) → (⟨S500000, .i32⟩ : BufTy).Contents (Elt F) → (⟨S500000, .i1⟩ : BufTy).Contents (Elt F)),
    nullary main_c_10 (constantI S_ 32 100000#32),
    unary main_c_10 main_v41 (broadcastInDim S500000 ![] bcast_S_S500000 : (⟨S_, .i32⟩ : BufTy).Contents (Elt F) → (⟨S500000, .i32⟩ : BufTy).Contents (Elt F)),
    binary main_v10 main_v41 main_v42 (addi : (⟨S500000, .i32⟩ : BufTy).Contents (Elt F) → (⟨S500000, .i32⟩ : BufTy).Contents (Elt F) → (⟨S500000, .i32⟩ : BufTy).Contents (Elt F)),
    ternary main_v40 main_v42 main_v10 main_v43 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v43 main_v44 (broadcastInDim S500000x1 ![0] bcast_S500000_S500000x1_0 : (⟨S500000, .i32⟩ : BufTy).Contents (Elt F) → (⟨S500000x1, .i32⟩ : BufTy).Contents (Elt F)),
    binary main_v6 main_v44 main_v45 ((fun x i => Host.gather gather_S100000x512_S500000x1_S500000x512_1_0_n_n_0_1_1512 x i) : (⟨S100000x512, .f32⟩ : BufTy).Contents (Elt F) → (⟨S500000x1, .i32⟩ : BufTy).Contents (Elt F) → (⟨S500000x512, .f32⟩ : BufTy).Contents (Elt F)),
    unary main_v38 main_v46 (broadcastInDim S500000x1 ![0] bcast_S500000_S500000x1_0 : (⟨S500000, .f32⟩ : BufTy).Contents (Elt F) → (⟨S500000x1, .f32⟩ : BufTy).Contents (Elt F)),
    unary main_v46 main_v47 (broadcastInDim S500000x512 ![0, 1] bcast_S500000x1_S500000x512_0_1 : (⟨S500000x1, .f32⟩ : BufTy).Contents (Elt F) → (⟨S500000x512, .f32⟩ : BufTy).Contents (Elt F)),
    binary main_v45 main_v47 main_v48 (mulf : (⟨S500000x512, .f32⟩ : BufTy).Contents (Elt F) → (⟨S500000x512, .f32⟩ : BufTy).Contents (Elt F) → (⟨S500000x512, .f32⟩ : BufTy).Contents (Elt F)),
    nullary main_cst_11 (constant S_ .f32 0x00000000#32),
    unary main_cst_11 main_v49 (broadcastInDim S100000x512 ![] bcast_S_S100000x512 : (⟨S_, .f32⟩ : BufTy).Contents (Elt F) → (⟨S100000x512, .f32⟩ : BufTy).Contents (Elt F)),
    unary main_v13 main_v50 (broadcastInDim S500000x1 ![0] bcast_S500000_S500000x1_0 : (⟨S500000, .i32⟩ : BufTy).Contents (Elt F) → (⟨S500000x1, .i32⟩ : BufTy).Contents (Elt F)),
    ternary main_v49 main_v50 main_v48 main_v51 ((fun x i u => Host.scatterAdd scatter_S100000x512_S500000x1_S500000x512_1_0_0_1 x i u) : (⟨S100000x512, .f32⟩ : BufTy).Contents (Elt F) → (⟨S500000x1, .i32⟩ : BufTy).Contents (Elt F) → (⟨S500000x512, .f32⟩ : BufTy).Contents (Elt F) → (⟨S100000x512, .f32⟩ : BufTy).Contents (Elt F)),
    unary main_arg3 main_v52 (broadcastInDim S1x512 ![1] bcast_S512_S1x512_1 : (⟨S512, .f32⟩ : BufTy).Contents (Elt F) → (⟨S1x512, .f32⟩ : BufTy).Contents (Elt F)),
    unary main_v52 main_v53 (broadcastInDim S100000x512 ![0, 1] bcast_S1x512_S100000x512_0_1 : (⟨S1x512, .f32⟩ : BufTy).Contents (Elt F) → (⟨S100000x512, .f32⟩ : BufTy).Contents (Elt F)),
    binary main_v51 main_v53 main_v54 (addf : (⟨S100000x512, .f32⟩ : BufTy).Contents (Elt F) → (⟨S100000x512, .f32⟩ : BufTy).Contents (Elt F) → (⟨S100000x512, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-! ## The stages -/

/-- Two word lists end to end. -/
def cat2 (a : (⟨S400000, .i32⟩ : BufTy).Contents (Elt Ideal)) (b : (⟨S100000, .i32⟩ : BufTy).Contents (Elt Ideal)) :
    (⟨S500000, .i32⟩ : BufTy).Contents (Elt Ideal) :=
  concatenate S500000 0 [⟨S400000, a⟩, ⟨S100000, b⟩] concatenates_S400000_S100000_S500000_d0

theorem cat2_eq (a : (⟨S400000, .i32⟩ : BufTy).Contents (Elt Ideal)) (b : (⟨S100000, .i32⟩ : BufTy).Contents (Elt Ideal)) :
    concatenate S500000 0 [⟨S400000, a⟩, ⟨S100000, b⟩] concatenates_S400000_S100000_S500000_d0 = cat2 a b := rfl

/-- A scalar constant splat over a shape. -/
abbrev splat (t : Shape) (h : S_.BroadcastsInDim t ![]) (b : BitVec 32) : FVec Ideal t .f32 :=
  broadcastInDim t ![] h (constant (F := Ideal) S_ .f32 b)

/-- The dropout scale: (mask ≥ 0.1), as 0 or 1, divided by 0.9 (the f32 nearest 0.9). -/
def rKeep (x4 : FVec Ideal S100000x512 .f32) : FVec Ideal S100000x512 .f32 :=
  Host.divf (F := Ideal) (uitofp .f32 (cmpf .oge x4 (splat S100000x512 bcast_S_S100000x512 0x3DCCCCCD#32)))
    (splat S100000x512 bcast_S_S100000x512 0x3F666666#32)

/-- The transformed features (x · keep) W. -/
def rH (x0 : FVec Ideal S100000x512 .f32) (x2 : FVec Ideal S512x512 .f32) (x4 : FVec Ideal S100000x512 .f32) :
    FVec Ideal S100000x512 .f32 :=
  Host.dotGeneral (F := Ideal) dot_S100000x512_S512x512_S100000x512_1_0_0_1_n_n none (mulf x0 (rKeep x4)) x2

/-- Row k of the edge list followed by the node numbers 0 … 99999. -/
def rEnds (k : Fin 2 → Nat) (hs : S2x400000.Slices k S1x400000) (x1 : IVec S2x400000 32) : IVec S500000 32 :=
  concatenate S500000 0 [⟨S400000, shapeCast S400000 (extractStridedSlice S1x400000 k x1 hs) shapeCasts_S1x400000_S400000⟩,
    ⟨S100000, iotaInDim S100000 32 0⟩] concatenates_S400000_S100000_S500000_d0

/-- Sources, then self-loops. -/
def rRow (x1 : IVec S2x400000 32) : IVec S500000 32 := rEnds ![0, 0] slices_S2x400000_S1x400000_0_0 x1
/-- Destinations, then self-loops. -/
def rCol (x1 : IVec S2x400000 32) : IVec S500000 32 := rEnds ![1, 0] slices_S2x400000_S1x400000_1_0 x1

/-- A list of node words as a column of start indices. -/
abbrev asCol (v : IVec S500000 32) : IVec S500000x1 32 := broadcastInDim S500000x1 ![0] bcast_S500000_S500000x1_0 v

/-- The degree: one per listed entry naming the node. -/
def rDeg (x1 : IVec S2x400000 32) : FVec Ideal S100000 .f32 :=
  Host.scatterAdd (F := Ideal) scatter_S100000_S500000x1_S500000_n_0_0_1 (splat S100000 bcast_S_S100000 0x00000000#32)
    (asCol (rCol x1)) (splat S500000 bcast_S_S500000 0x3F800000#32)

/-- deg^(-1/2) where deg > 0, else 0 (the degree clamped below by 1e-12 under the root). -/
def rDinv (x1 : IVec S2x400000 32) : FVec Ideal S100000 .f32 :=
  select (cmpf .ogt (rDeg x1) (splat S100000 bcast_S_S100000 0x00000000#32))
    (Host.rsqrt (F := Ideal) (maximumf (rDeg x1) (splat S100000 bcast_S_S100000 0x2B8CBCCC#32)))
    (broadcastInDim S100000 ![] bcast_S_S100000 (id (constant (F := Ideal) S_ .f32 0x00000000#32)))

/-- A node word made a gather index: a negative word counts from the end; as a column. -/
def rWrap (v : IVec S500000 32) : IVec S500000x1 32 :=
  asCol (select (cmpi .slt v (broadcastInDim S500000 ![] bcast_S_S500000 (constantI S_ 32 0#32)))
    (addi v (broadcastInDim S500000 ![] bcast_S_S500000 (constantI S_ 32 100000#32))) v)

/-- The edge weights dinv(source) · dinv(destination). -/
def rNorm (x1 : IVec S2x400000 32) : FVec Ideal S500000 .f32 :=
  mulf (Host.gather gather_S100000_S500000x1_S500000_n_0_n_n_0_1_1 (rDinv x1) (rWrap (rRow x1)))
    (Host.gather gather_S100000_S500000x1_S500000_n_0_n_n_0_1_1 (rDinv x1) (rWrap (rCol x1)))

/-- The messages h(source) · weight. -/
def rMsgs (x0 : FVec Ideal S100000x512 .f32) (x1 : IVec S2x400000 32) (x2 : FVec Ideal S512x512 .f32)
    (x4 : FVec Ideal S100000x512 .f32) : FVec Ideal S500000x512 .f32 :=
  mulf (Host.gather gather_S100000x512_S500000x1_S500000x512_1_0_n_n_0_1_1512 (rH x0 x2 x4) (rWrap (rRow x1)))
    (broadcastInDim S500000x512 ![0, 1] bcast_S500000x1_S500000x512_0_1
      (broadcastInDim S500000x1 ![0] bcast_S500000_S500000x1_0 (rNorm x1)))

/-- The result: the messages added up at their destinations, plus the bias. -/
def rOut (x0 : FVec Ideal S100000x512 .f32) (x1 : IVec S2x400000 32) (x2 : FVec Ideal S512x512 .f32)
    (x3 : FVec Ideal S512 .f32) (x4 : FVec Ideal S100000x512 .f32) : FVec Ideal S100000x512 .f32 :=
  addf (Host.scatterAdd (F := Ideal) scatter_S100000x512_S500000x1_S500000x512_1_0_0_1
      (splat S100000x512 bcast_S_S100000x512 0x00000000#32) (asCol (rCol x1)) (rMsgs x0 x1 x2 x4))
    (broadcastInDim S100000x512 ![0, 1] bcast_S1x512_S100000x512_0_1 (broadcastInDim S1x512 ![1] bcast_S512_S1x512_1 x3))

set_option maxRecDepth 65536 in
set_option maxHeartbeats 28400000 in
/-- On every device, from any memory with zero counters: every weakly fair execution of @main terminates with the result at
    rOut of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = rOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v54).trans (by
        simp (disch := decide) only [after_cons, after_nil, nullary_result', unary_result', binary_result', ternary_result',
          reshape_result', nullary_result_ne', unary_result_ne', binary_result_ne', ternary_result_ne', reshape_result_ne']
        repeat rw [cat2_eq]
        simp (disch := decide) only [after_cons, after_nil, nullary_result', unary_result', binary_result', ternary_result',
          reshape_result', nullary_result_ne', unary_result_ne', binary_result_ne', ternary_result_ne', reshape_result_ne']
        simp only [TRef.toBuf, TRef.ofBuf, cast_eq]
        exact rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops (F := Ideal)) main_eq (fun _ => ops_sub) m ρ)

end Cert.ReferenceIdeal.RefValue

end
-- ==== Proof.RefAt.lean ====
/-
  THE REFERENCE'S RESULT READ AT AN INDEX.

  The listed edges are the 400000 given ones followed by one self-loop per node: entry e' < 400000 of the source
  (destination) list is word e' of row 0 (row 1) of the edge array, entry 400000 + i is the word i. A gather takes the row
  of the node the wrapped word names (rSrc, rDst); a scatter adds at the node whose number the destination word reads.
  So the result at (c, j) is
      (0 + Σ over listed entries e' whose destination word reads c of h(rSrc e', j) · (dinv(rSrc e') · dinv(rDst e'))) + b(j),
  the degree at n is 0 + Σ over listed entries whose destination word reads n of 1, dinv(n) = dinvOf(degree n), and
  h(n, j) = Σ_k (x(n,k) · keep(n,k)) · W(k,j) with keep = (mask ≥ 0.1) / 0.9.
-/
import proofs.«166703_j12472585028062_2_alg».proof.Proof.RefRun
import proofs.«166703_j12472585028062_2_alg».proof.Proof.LibLayoutAt
import proofs.«166703_j12472585028062_2_alg».proof.Proof.LibScatterAddAt
import proofs.«166703_j12472585028062_2_alg».proof.Proof.LibPlainMatmul
import proofs.«166703_j12472585028062_2_alg».proof.Proof.NodeFacts

noncomputable section

open scoped BigOperators

namespace Cert.ReferenceIdeal.RefValue

open Cert.ReferenceIdeal Cert.ReferenceIdeal.Gen Idealize.ShloMosaic Idealize.ShloMosaic.ValueIdx
open Idealize.ShloMosaic.RowGatherScatter Cert.LibLayoutAt Cert.LibScatterAddAt Cert.Gcn

/-! ## The listed words -/

theorem rRow_left (x1 : IVec S2x400000 32) (e' : Fin 500000) (e : Fin 400000) (he : e'.val = e.val) :
    rRow x1 (ix1 e') = x1 (ix2 (0 : Fin 2) e) := by
  unfold rRow rEnds
  exact (concat_vec_left _ _ concatenates_S400000_S100000_S500000_d0 e' e he).trans
    (row_of_pair_apply (0 : Fin 2) x1 slices_S2x400000_S1x400000_0_0 shapeCasts_S1x400000_S400000 e)

theorem rRow_right (x1 : IVec S2x400000 32) (e' : Fin 500000) (i : Fin 100000) (he : e'.val = 400000 + i.val) :
    rRow x1 (ix1 e') = BitVec.ofNat 32 i.val := by
  unfold rRow rEnds
  exact (concat_vec_right _ _ concatenates_S400000_S100000_S500000_d0 e' i he).trans (iota_vec_apply 32 i)

theorem rCol_left (x1 : IVec S2x400000 32) (e' : Fin 500000) (e : Fin 400000) (he : e'.val = e.val) :
    rCol x1 (ix1 e') = x1 (ix2 (1 : Fin 2) e) := by
  unfold rCol rEnds
  exact (concat_vec_left _ _ concatenates_S400000_S100000_S500000_d0 e' e he).trans
    (row_of_pair_apply (1 : Fin 2) x1 slices_S2x400000_S1x400000_1_0 shapeCasts_S1x400000_S400000 e)

theorem rCol_right (x1 : IVec S2x400000 32) (e' : Fin 500000) (i : Fin 100000) (he : e'.val = 400000 + i.val) :
    rCol x1 (ix1 e') = BitVec.ofNat 32 i.val := by
  unfold rCol rEnds
  exact (concat_vec_right _ _ concatenates_S400000_S100000_S500000_d0 e' i he).trans (iota_vec_apply 32 i)

/-- A word list made a column reads, at row r, word r. -/
theorem asCol_apply (v : IVec S500000 32) (r : Fin 500000) : asCol v (ix2 r (0 : Fin 1)) = v (ix1 r) :=
  bcast_a_a1_apply _ bcast_S500000_S500000x1_0 r 0

/-- The gather column at row r is the wrap of word r. -/
theorem rWrap_apply (v : IVec S500000 32) (r : Fin 500000) : rWrap v (ix2 r (0 : Fin 1)) = wrapW (v (ix1 r)) := by
  unfold rWrap
  exact (bcast_a_a1_apply _ bcast_S500000_S500000x1_0 r 0).trans rfl

/-- The node listed entry e' takes its feature from, -/
def rSrc (x1 : IVec S2x400000 32) (e' : Fin 500000) : Fin 100000 := nodeOf (rRow x1 (ix1 e'))
/-- and the node its weight's second factor is read at. -/
def rDst (x1 : IVec S2x400000 32) (e' : Fin 500000) : Fin 100000 := nodeOf (rCol x1 (ix1 e'))

/-! ## The degree and dinv -/

/-- A degree count at a node, from ANY destination list: 0 plus one per entry whose word reads the node. -/
theorem deg_apply_gen (col : IVec S500000 32) (n : Fin 100000) :
    Host.scatterAdd (F := Ideal) scatter_S100000_S500000x1_S500000_n_0_0_1 (splat S100000 bcast_S_S100000 0x00000000#32)
        (asCol col) (splat S500000 bcast_S_S500000 0x3F800000#32) (ix1 n)
      = Ideal.ofBits .f32 0x00000000#32
        + ∑ e' : Fin 500000, if (col (ix1 e')).toInt = (n.val : ℤ) then Ideal.ofBits .f32 0x3F800000#32 else 0 := by
  rw [scatterAdd_elems_apply _ rfl rfl rfl rfl]
  refine congrArg (fun s : EReal => Ideal.ofBits .f32 0x00000000#32 + s) (Finset.sum_congr rfl fun r _ => ?_)
  rw [asCol_apply] <;> rfl

theorem rDeg_apply (x1 : IVec S2x400000 32) (n : Fin 100000) :
    rDeg x1 (ix1 n) = Ideal.ofBits .f32 0x00000000#32
      + ∑ e' : Fin 500000, if (rCol x1 (ix1 e')).toInt = (n.val : ℤ) then Ideal.ofBits .f32 0x3F800000#32 else 0 :=
  deg_apply_gen (rCol x1) n

/-- dinv at a node, from ANY degree vector: dinvOf of the degree there. -/
theorem dinv_apply_gen (d : FVec Ideal S100000 .f32) (n : Fin 100000) :
    select (cmpf .ogt d (splat S100000 bcast_S_S100000 0x00000000#32))
      (Host.rsqrt (F := Ideal) (maximumf d (splat S100000 bcast_S_S100000 0x2B8CBCCC#32)))
      (broadcastInDim S100000 ![] bcast_S_S100000 (id (constant (F := Ideal) S_ .f32 0x00000000#32))) (ix1 n)
      = dinvOf (d (ix1 n)) := rfl

theorem rDinv_apply (x1 : IVec S2x400000 32) (n : Fin 100000) : rDinv x1 (ix1 n) = dinvOf (rDeg x1 (ix1 n)) :=
  dinv_apply_gen (rDeg x1) n

/-! ## The transformed features -/

/-- The dropout scale at one entry: (mask ≥ 0.1), as 0 or 1, divided by 0.9. -/
def keepR (mk : EReal) : EReal :=
  Ideal.div (((FloatOps.cmpf (F := Ideal) (φ := .f32) .oge mk (Ideal.ofBits .f32 0x3DCCCCCD#32)).toNat : ℝ) : EReal)
    (Ideal.ofBits .f32 0x3F666666#32)

theorem rH_apply (x0 : FVec Ideal S100000x512 .f32) (x2 : FVec Ideal S512x512 .f32) (x4 : FVec Ideal S100000x512 .f32)
    (n : Fin 100000) (j : Fin 512) :
    rH x0 x2 x4 (ix2 n j) = ∑ k : Fin 512, (x0 (ix2 n k) * keepR (x4 (ix2 n k))) * x2 (ix2 k j) := by
  unfold rH
  have hd : dot_S100000x512_S512x512_S100000x512_1_0_0_1_n_n = DotDims.plain 100000 512 512 := rfl
  rw [hd, Cert.LibPlainMatmul.dotGeneral_plain_apply]
  rfl

/-! ## The result -/

/-- A message at (r, j), from ANY feature array, dinv vector and word lists: the feature of the source node times the two
    dinv factors. -/
theorem msgs_apply_gen (H : FVec Ideal S100000x512 .f32) (D : FVec Ideal S100000 .f32) (row col : IVec S500000 32)
    (r : Fin 500000) (j : Fin 512) :
    mulf (Host.gather gather_S100000x512_S500000x1_S500000x512_1_0_n_n_0_1_1512 H (rWrap row))
        (broadcastInDim S500000x512 ![0, 1] bcast_S500000x1_S500000x512_0_1
          (broadcastInDim S500000x1 ![0] bcast_S500000_S500000x1_0
            (mulf (Host.gather gather_S100000_S500000x1_S500000_n_0_n_n_0_1_1 D (rWrap row))
              (Host.gather gather_S100000_S500000x1_S500000_n_0_n_n_0_1_1 D (rWrap col))))) (ix2 r j)
      = H (ix2 (nodeOf (row (ix1 r))) j) * (D (ix1 (nodeOf (row (ix1 r)))) * D (ix1 (nodeOf (col (ix1 r))))) := by
  show Host.gather gather_S100000x512_S500000x1_S500000x512_1_0_n_n_0_1_1512 H (rWrap row) (ix2 r j)
      * broadcastInDim S500000x512 ![0, 1] bcast_S500000x1_S500000x512_0_1 (broadcastInDim S500000x1 ![0] bcast_S500000_S500000x1_0
          (mulf (Host.gather gather_S100000_S500000x1_S500000_n_0_n_n_0_1_1 D (rWrap row))
            (Host.gather gather_S100000_S500000x1_S500000_n_0_n_n_0_1_1 D (rWrap col)))) (ix2 r j) = _
  rw [gather_rows_apply (by decide) _ rfl rfl rfl rfl rfl rfl rfl, bcast_a1_ab_apply, bcast_a_a1_apply,
    rowOf_eq_nodeOf _ r _ (rWrap_apply _ r)]
  show _ * (Host.gather gather_S100000_S500000x1_S500000_n_0_n_n_0_1_1 D (rWrap row) (ix1 r)
      * Host.gather gather_S100000_S500000x1_S500000_n_0_n_n_0_1_1 D (rWrap col) (ix1 r)) = _
  rw [gather_elems_apply (by decide) _ rfl rfl rfl rfl rfl rfl rfl, gather_elems_apply (by decide) _ rfl rfl rfl rfl rfl rfl rfl,
    rowOf_eq_nodeOf _ r _ (rWrap_apply _ r), rowOf_eq_nodeOf _ r _ (rWrap_apply _ r)]

theorem rMsgs_apply (x0 : FVec Ideal S100000x512 .f32) (x1 : IVec S2x400000 32) (x2 : FVec Ideal S512x512 .f32)
    (x4 : FVec Ideal S100000x512 .f32) (r : Fin 500000) (j : Fin 512) :
    rMsgs x0 x1 x2 x4 (ix2 r j)
      = rH x0 x2 x4 (ix2 (rSrc x1 r) j) * (rDinv x1 (ix1 (rSrc x1 r)) * rDinv x1 (ix1 (rDst x1 r))) :=
  msgs_apply_gen (rH x0 x2 x4) (rDinv x1) (rRow x1) (rCol x1) r j

/-- The result at (c, j), from ANY message array and destination list: 0 plus the messages whose word reads c, plus the bias. -/
theorem out_apply_gen (M : FVec Ideal S500000x512 .f32) (col : IVec S500000 32) (x3 : FVec Ideal S512 .f32)
    (c : Fin 100000) (j : Fin 512) :
    addf (Host.scatterAdd (F := Ideal) scatter_S100000x512_S500000x1_S500000x512_1_0_0_1
        (splat S100000x512 bcast_S_S100000x512 0x00000000#32) (asCol col) M)
      (broadcastInDim S100000x512 ![0, 1] bcast_S1x512_S100000x512_0_1 (broadcastInDim S1x512 ![1] bcast_S512_S1x512_1 x3)) (ix2 c j)
      = (Ideal.ofBits .f32 0x00000000#32 + ∑ r : Fin 500000, if (col (ix1 r)).toInt = (c.val : ℤ) then M (ix2 r j) else 0)
        + x3 (ix1 j) := by
  refine (addf_apply _ _ _).trans ?_
  rw [scatterAdd_rows_apply _ rfl rfl rfl rfl, bcast_1b_ab_apply, bcast_a_1a_apply]
  refine congrArg (fun s : EReal => (Ideal.ofBits .f32 0x00000000#32 + s) + x3 (ix1 j)) (Finset.sum_congr rfl fun r _ => ?_)
  rw [asCol_apply]

theorem rOut_apply (x0 : FVec Ideal S100000x512 .f32) (x1 : IVec S2x400000 32) (x2 : FVec Ideal S512x512 .f32)
    (x3 : FVec Ideal S512 .f32) (x4 : FVec Ideal S100000x512 .f32) (c : Fin 100000) (j : Fin 512) :
    rOut x0 x1 x2 x3 x4 (ix2 c j)
      = (Ideal.ofBits .f32 0x00000000#32 + ∑ e' : Fin 500000, if (rCol x1 (ix1 e')).toInt = (c.val : ℤ)
          then rH x0 x2 x4 (ix2 (rSrc x1 e') j) * (rDinv x1 (ix1 (rSrc x1 e')) * rDinv x1 (ix1 (rDst x1 e'))) else 0)
        + x3 (ix1 j) := by
  unfold rOut
  rw [out_apply_gen]
  refine congrArg (fun s : EReal => (Ideal.ofBits .f32 0x00000000#32 + s) + x3 (ix1 j)) (Finset.sum_congr rfl fun r _ => ?_)
  rw [rMsgs_apply]

end Cert.ReferenceIdeal.RefValue

end
-- ==== Proof.Bridge.lean ====
/-
  THE TWO PROGRAMS COMPUTE ONE FUNCTION of the argument arrays, at exact (extended-real) arithmetic.

  The dropout scale is the same number in both spellings: the kernel multiplies (mask ≥ 0.1), as 0 or 1, by the named
  constant 8388608/7549747; the reference divides it by the f32 nearest 0.9, which is 7549747/8388608; and dividing by a
  nonzero real is multiplying by its reciprocal, for every extended real. So the transformed features agree. The degree
  is counted as (edges into the node) + 1 by the kernel and over the edge list extended by the self-loops by the reference:
  equal, so dinv agrees. The results then agree by the algebra of the two arrangements (a nonnegative real factor dinv(c)
  distributes over the aggregated sum, whatever the features are).
-/
import proofs.«166703_j12472585028062_2_alg».proof.Proof.KAt
import proofs.«166703_j12472585028062_2_alg».proof.Proof.RefAt
import Idealize.ShloMosaic.Lib.KernelVsHost
import Idealize.ShloMosaic.PureOps.IdealRules

noncomputable section

open scoped BigOperators

namespace Cert.Bridge

open Idealize.ShloMosaic Idealize.ShloMosaic.ValueIdx Cert.Gcn
open Cert.KernelIdeal.KValue Cert.ReferenceIdeal.RefValue

/-- The kernel's named reciprocal denotes 8388608/7549747, by the certificate's table. -/
theorem inv_keep : Named.named (F := Ideal) Cert.KernelIdeal.κ "inv_keep" (φ := .f32) 0x3F8E38E4#32
    = ((8388608 / 7549747 : ℝ) : EReal) :=
  IdealRules.named_const.ideal_named_scalar _ _ _ _ rfl

/-- The pattern 0x3F666666 (sign 0, exponent 126, significand 2^23 + 6710886) denotes 15099494 · 2^(−24) = 7549747/8388608. -/
theorem ofBits_09 : Ideal.ofBits .f32 0x3F666666#32 = ((7549747 / 8388608 : ℝ) : EReal) := by
  simp [Ideal.ofBits, Ideal.ieee, -EReal.coe_mul]; norm_num

/-- THE DROPOUT SCALE, the kernel's product with the named reciprocal and the reference's quotient: one number. -/
theorem keep_eq (mk : EReal) : keepK mk = keepR mk := by
  unfold keepK keepR
  rw [inv_keep, ofBits_09, Ideal.div_coe (by norm_num : (7549747 / 8388608 : ℝ) ≠ 0)]
  congr 1
  · show ((((FloatOps.cmpf (F := Ideal) (φ := .f32) .oge mk (Ideal.ofBits .f32 0x3DCCCCCD#32)).setWidth 32).toInt : ℝ) : EReal)
      = (((FloatOps.cmpf (F := Ideal) (φ := .f32) .oge mk (Ideal.ofBits .f32 0x3DCCCCCD#32)).toNat : ℝ) : EReal)
    rw [toInt_setWidth_bit]
    norm_cast
  · norm_num

/-- THE TWO RESULTS ARE ONE FUNCTION of the argument arrays. -/
theorem out_eq (x0 : FVec Ideal Cert.KernelIdeal.S100000x512 .f32) (x1 : IVec Cert.KernelIdeal.S2x400000 32)
    (x2 : FVec Ideal Cert.KernelIdeal.S512x512 .f32) (x3 : FVec Ideal Cert.KernelIdeal.S512 .f32)
    (x4 : FVec Ideal Cert.KernelIdeal.S100000x512 .f32) :
    rOut x0 x1 x2 x3 x4 = kOut x0 x1 x2 x3 x4 := by
  funext i
  obtain ⟨c, j, rfl⟩ : ∃ (c : Fin 100000) (j : Fin 512), i = ix2 c j := ⟨i 0, i 1, eq_ix2 i⟩
  rw [kOut_apply, rOut_apply]
  have hcolL : ∀ (e' : Fin 500000) (e : Fin 400000), e'.val = e.val → rCol x1 (ix1 e') = kCol x1 (ix1 e) := fun e' e he => by
    rw [rCol_left x1 e' e he, kCol_apply]
  have hcolR : ∀ (e' : Fin 500000) (i : Fin 100000), e'.val = 400000 + i.val → (rCol x1 (ix1 e')).toInt = (i.val : ℤ) :=
    fun e' i he => by rw [rCol_right x1 e' i he]; exact toInt_ofNat_node i
  have hsrcL : ∀ (e' : Fin 500000) (e : Fin 400000), e'.val = e.val → rSrc x1 e' = kSrc x1 e := fun e' e he => by
    unfold rSrc kSrc
    rw [rRow_left x1 e' e he, kRow_apply]
  have hdstL : ∀ (e' : Fin 500000) (e : Fin 400000) (c : Fin 100000), e'.val = e.val → (kCol x1 (ix1 e)).toInt = (c.val : ℤ)
      → rDst x1 e' = c := fun e' e c he hc => by
    unfold rDst
    rw [hcolL e' e he]
    exact nodeOf_of_toInt _ c hc
  have hsrcR : ∀ (e' : Fin 500000) (i : Fin 100000), e'.val = 400000 + i.val → rSrc x1 e' = i := fun e' i he => by
    unfold rSrc
    rw [rRow_right x1 e' i he]
    exact nodeOf_of_toInt _ i (toInt_ofNat_node i)
  have hdstR : ∀ (e' : Fin 500000) (i : Fin 100000), e'.val = 400000 + i.val → rDst x1 e' = i := fun e' i he => by
    unfold rDst
    rw [rCol_right x1 e' i he]
    exact nodeOf_of_toInt _ i (toInt_ofNat_node i)
  have hH : ∀ n : Fin 100000, rH x0 x2 x4 (ix2 n j) = hK x0 x4 x2 n j := fun n => by
    rw [rH_apply]
    unfold hK
    simp only [keep_eq]
  have hDeg : ∀ n : Fin 100000, rDeg x1 (ix1 n) = kDeg x1 (ix1 n) := fun n => by
    rw [rDeg_apply, kDeg_apply]
    exact (Cert.Gcn.deg_eq _ _ (fun e => kCol x1 (ix1 e)) (by norm_num) (fun e' => rCol x1 (ix1 e')) hcolL hcolR n).symm
  have hD : ∀ n : Fin 100000, rDinv x1 (ix1 n) = kDinv x1 (ix1 n) := fun n => by
    rw [rDinv_apply, kDinv_apply, hDeg]
  simp only [hH, hD]
  exact (Cert.Gcn.out_eq (fun n => hK x0 x4 x2 n j) (fun n => kDinv x1 (ix1 n))
    (fun n => by rw [kDinv_apply]; exact dinvOf_nonnegReal _) _ _ zeroF (kSrc x1) (fun e => kCol x1 (ix1 e))
    (by norm_num) (rSrc x1) (rDst x1) (fun e' => rCol x1 (ix1 e')) hsrcL hcolL hdstL hsrcR hdstR hcolR c).symm

end Cert.Bridge

end
-- ==== Proof.lean ====
/-
  A GRAPH CONVOLUTION WITH DROPOUT, two arrangements, equal at exact (extended-real) arithmetic.

  Both programs compute, from node features x [100000, 512], an edge list [2, 400000], a weight W, a bias b and a uniform
  mask, the symmetric-normalised aggregation  out(c) = Σ_{edges e into c, and c's self-loop} dinv(src e) · dinv(c) · h(src e) + b,
  with h = (x · keep) W the transformed features, keep = (mask ≥ 0.1) / 0.9 the dropout scale, and dinv = deg^(-1/2).

  The kernel program scales each node's feature once inside its matmul region (hs = dinv · h, the dropout scale a product with
  the folded reciprocal of 0.9, named its exact rational), adds up the scaled sources of the 400000 edges at their destinations
  on the host, adds hs itself for the self-loop, and scales by dinv. The reference lists the self-loops as 100000 further edges
  and weights every listed edge by dinv(src) · dinv(dst). The two agree for every extended-real input: dinv is a nonnegative
  real whatever the degree, and a nonnegative real factor distributes over any sum of extended reals; the precondition is never
  used. The frames of the two kernel programs are the generated ones; the reference's frame is its run with the result dropped.
-/
import proofs.«166703_j12472585028062_2_alg».proof.Defs
import proofs.«166703_j12472585028062_2_alg».proof.Proof.Gen.Kernel
import proofs.«166703_j12472585028062_2_alg».proof.Proof.Gen.Kernel.Skeleton
import proofs.«166703_j12472585028062_2_alg».proof.Proof.Gen.Kernel.Launch
import proofs.«166703_j12472585028062_2_alg».proof.Proof.Gen.Kernel.Points
import proofs.«166703_j12472585028062_2_alg».proof.Proof.Gen.Kernel.Frame
import proofs.«166703_j12472585028062_2_alg».proof.Proof.Gen.KernelIdeal
import proofs.«166703_j12472585028062_2_alg».proof.Proof.Gen.KernelIdeal.Skeleton
import proofs.«166703_j12472585028062_2_alg».proof.Proof.Gen.KernelIdeal.Launch
import proofs.«166703_j12472585028062_2_alg».proof.Proof.Gen.KernelIdeal.Points
import proofs.«166703_j12472585028062_2_alg».proof.Proof.Gen.KernelIdeal.Frame
import proofs.«166703_j12472585028062_2_alg».proof.Proof.Gen.ReferenceIdeal
import proofs.«166703_j12472585028062_2_alg».proof.Proof.Gen.Pre_finite_inputs
import proofs.«166703_j12472585028062_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefValue.run m ρ)

/-- The one rewrite of the idealization: the certificate's table gives the dropout reciprocal the value 8388608/7549747,
    and the printed constant is that value at exact arithmetic. -/
theorem preserves : Cert.preserves_Kernel_KernelIdeal :=
  IdealRules.named_const.statement Cert.KernelIdeal.κ "inv_keep" .f32 0x3F8E38E4#32 ((8388608 / 7549747 : ℝ) : EReal) rfl

/-- From memories agreeing on the arguments both programs end with the result buffer at one function of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  exact Cert.Bridge.out_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
